-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v116_0)) (v1 : (c : Dev Cert.KernelIdeal.nD) → Buf (Elt Ideal) ((c.tc : Thread Cert.KernelIdeal.nD Cert.KernelIdeal.τ).loc Cert.KernelIdeal.main_v116_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116_0) = v0 c
          ∧ r.2.mem ((c.tc : Thread Cert.KernelIdeal.nD Cert.KernelIdeal.τ).loc Cert.KernelIdeal.main_v116_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x4 : Shape := ⟨2, ![10000, 4]⟩
abbrev S2x320000 : Shape := ⟨2, ![2, 320000]⟩
abbrev S4x16 : Shape := ⟨2, ![4, 16]⟩
abbrev S16 : Shape := ⟨1, ![16]⟩
abbrev S16x16 : Shape := ⟨2, ![16, 16]⟩
abbrev S160000x64 : Shape := ⟨2, ![160000, 64]⟩
abbrev S64 : Shape := ⟨1, ![64]⟩
abbrev S64x10000 : Shape := ⟨2, ![64, 10000]⟩
abbrev S10000 : Shape := ⟨1, ![10000]⟩
abbrev S64x1 : Shape := ⟨2, ![64, 1]⟩
abbrev S1 : Shape := ⟨1, ![1]⟩
abbrev S_ : Shape := ⟨0, ![]⟩

class Facts : Prop where
  bcast_S_S10000x4 : S_.BroadcastsInDim S10000x4 (![] : Fin 0 → Fin S10000x4.rank)
  reducesTo_S10000x4_S_d0_1 : S10000x4.ReducesTo [0, 1] S_
  h_S_ : 0 < S_.numel
  bcast_S_S4x16 : S_.BroadcastsInDim S4x16 (![] : Fin 0 → Fin S4x16.rank)
  reducesTo_S4x16_S_d0_1 : S4x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S160000x64 : S_.BroadcastsInDim S160000x64 (![] : Fin 0 → Fin S160000x64.rank)
  reducesTo_S160000x64_S_d0_1 : S160000x64.ReducesTo [0, 1] S_
  bcast_S_S64 : S_.BroadcastsInDim S64 (![] : Fin 0 → Fin S64.rank)
  reducesTo_S64_S_d0 : S64.ReducesTo [0] S_
  bcast_S_S64x10000 : S_.BroadcastsInDim S64x10000 (![] : Fin 0 → Fin S64x10000.rank)
  reducesTo_S64x10000_S_d0_1 : S64x10000.ReducesTo [0, 1] S_
  bcast_S_S10000 : S_.BroadcastsInDim S10000 (![] : Fin 0 → Fin S10000.rank)
  reducesTo_S10000_S_d0 : S10000.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S64x1 .f32) (main_arg13 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg12
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S64x10000 .f32) (main_arg9 : FVec F S10000 .f32) (main_arg10 : FVec F S160000x64 .f32) (main_arg11 : FVec F S64 .f32) (main_arg12 : FVec F S64x1 .f32) (main_arg13 : FVec F S1 .f32) (main_v33 : IVec S_ 1) : IVec S_ 1 :=
  let main_v34 : FVec F S64x10000 .f32 := Host.absf main_arg8
  let main_cst_12 : FVec F S_ .f32 := constant S_ .f32 0x7F800000#32
  let main_v35 : FVec F S64x10000 .f32 := broadcastInDim S64x10000 ![] bcast_S_S64x10000 main_cst_12
  let main_v36 : IVec S64x10000 1 := cmpf .olt main_v34 main_v35
  let main_c_13 : IVec S_ 1 := constantI S_ 1 1#1
  let main_v37 : IVec S_ 1 := (fun x v => Host.reduce IntOp.andi x v reducesTo_S64x10000_S_d0_1 h_S_) main_v36 main_c_13
  let main_v38 : IVec S_ 1 := andi main_v33 main_v37
  let main_v39 : FVec F S10000 .f32 := Host.absf main_arg9
  let main_cst_14 : FVec F S_ .f32 := constant S_ .f32 0x7F800000#32
  let main_v40 : FVec F S10000 .f32 := broadcastInDim S10000 ![] bcast_S_S10000 main_cst_14
  let main_v41 : IVec S10000 1 := cmpf .olt main_v39 main_v40
  let main_c_15 : IVec S_ 1 := constantI S_ 1 1#1
  let main_v42 : IVec S_ 1 := (fun x v => Host.reduce IntOp.andi x v reducesTo_S10000_S_d0 h_S_) main_v41 main_c_15
  let main_v43 : IVec S_ 1 := andi main_v38 main_v42
  let main_v44 : FVec F S160000x64 .f32 := Host.absf main_arg10
  let main_cst_16 : FVec F S_ .f32 := constant S_ .f32 0x7F800000#32
  let main_v45 : FVec F S160000x64 .f32 := broadcastInDim S160000x64 ![] bcast_S_S160000x64 main_cst_16
  let main_v46 : IVec S160000x64 1 := cmpf .olt main_v44 main_v45
  let main_c_17 : IVec S_ 1 := constantI S_ 1 1#1
  let main_v47 : IVec S_ 1 := (fun x v => Host.reduce IntOp.andi x v reducesTo_S160000x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S16 .f32) (main_arg6 : FVec F S160000x64 .f32) (main_arg7 : FVec F S64 .f32) (main_arg8 : FVec F S64x10000 .f32) (main_arg9 : FVec F S10000 .f32) (main_arg10 : FVec F S160000x64 .f32) (main_arg11 : FVec F S64 .f32) (main_arg12 : FVec F S64x1 .f32) (main_arg13 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S160000x64 .f32 := Host.absf main_arg6
  let main_cst_8 : FVec F S_ .f32 := constant S_ .f32 0x7F800000#32
  let main_v25 : FVec F S160000x64 .f32 := broadcastInDim S160000x64 ![] bcast_S_S160000x64 main_cst_8
  let main_v26 : IVec S160000x64 1 := cmpf .olt main_v24 main_v25
  let main_c_9 : IVec S_ 1 := constantI S_ 1 1#1
  let main_v27 : IVec S_ 1 := (fun x v => Host.reduce IntOp.andi x v reducesTo_S160000x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S10000x4 .f32) (main_arg1 : IVec S2x320000 32) (main_arg2 : FVec F S4x16 .f32) (main_arg3 : FVec F S16 .f32) (main_arg4 : FVec F S16x16 .f32) (main_arg5 : FVec F S16 .f32) (main_arg6 : FVec F S160000x64 .f32) (main_arg7 : FVec F S64 .f32) (main_arg8 : FVec F S64x10000 .f32) (main_arg9 : FVec F S10000 .f32) (main_arg10 : FVec F S160000x64 .f32) (main_arg11 : FVec F S64 .f32) (main_arg12 : FVec F S64x1 .f32) (main_arg13 : FVec F S1 .f32) : IVec S_ 1 :=
  let main_v0 : FVec F S10000x4 .f32 := Host.absf main_arg0
  let main_cst : FVec F S_ .f32 := constant S_ .f32 0x7F800000#32
  let main_v1 : FVec F S10000x4 .f32 := broadcastInDim S10000x4 ![] bcast_S_S10000x4 main_cst
  let main_v2 : IVec S10000x4 1 := cmpf .olt main_v0 main_v1
  let main_c : IVec S_ 1 := constantI S_ 1 1#1
  let main_v3 : IVec S_ 1 := (fun x v => Host.reduce IntOp.andi x v reducesTo_S10000x4_S_d0_1 h_S_) main_v2 main_c
  let main_v4 : FVec F S4x16 .f32 := Host.absf main_arg2
  let main_cst_0 : FVec F S_ .f32 := constant S_ .f32 0x7F800000#32
  let main_v5 : FVec F S4x16 .f32 := broadcastInDim S4x16 ![] bcast_S_S4x16 main_cst_0
  let main_v6 : IVec S4x16 1 := cmpf .olt main_v4 main_v5
  let main_c_1 : IVec S_ 1 := constantI S_ 1 1#1
  let main_v7 : IVec S_ 1 := (fun x v => Host.reduce IntOp.andi x v reducesTo_S4x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_arg9 main_arg10 main_arg11 main_arg12 main_arg13 main_v13 main_v16
-- ==== Kernel.lean ====
abbrev S10000x4 : Shape := ⟨2, ![10000, 4]⟩
abbrev S2x320000 : Shape := ⟨2, ![2, 320000]⟩
abbrev S4x16 : Shape := ⟨2, ![4, 16]⟩
abbrev S16 : Shape := ⟨1, ![16]⟩
abbrev S16x16 : Shape := ⟨2, ![16, 16]⟩
abbrev S160000x64 : Shape := ⟨2, ![160000, 64]⟩
abbrev S64 : Shape := ⟨1, ![64]⟩
abbrev S64x10000 : Shape := ⟨2, ![64, 10000]⟩
abbrev S10000 : Shape := ⟨1, ![10000]⟩
abbrev S64x1 : Shape := ⟨2, ![64, 1]⟩
abbrev S1 : Shape := ⟨1, ![1]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10000x16 : Shape := ⟨2, ![10000, 16]⟩
abbrev S330000x16 : Shape := ⟨2, ![330000, 16]⟩
abbrev S1x16 : Shape := ⟨2, ![1, 16]⟩
abbrev S1x160000 : Shape := ⟨2, ![1, 160000]⟩
abbrev S1x64 : Shape := ⟨2, ![1, 64]⟩
abbrev S1x3200 : Shape := ⟨2, ![1, 3200]⟩
abbrev S3200x64 : Shape := ⟨2, ![3200, 64]⟩
abbrev S1x10000 : Shape := ⟨2, ![1, 10000]⟩
abbrev S1x1 : Shape := ⟨2, ![1, 1]⟩

abbrev nBuf : Space → Nat
  | .hbm => 163
  | .vmem => 18
  | .smem => 0
  | _ => 0

abbrev hbmTy0_0 (i : Nat) : BufTy := match i % 128 with
  | 0 => ⟨S10000x4, .f32⟩
  | 1 => ⟨S2x320000, .i32⟩
  | 2 => ⟨S4x16, .f32⟩
  | 3 => ⟨S16, .f32⟩
  | 4 => ⟨S16x16, .f32⟩
  | 5 => ⟨S16, .f32⟩
  | 6 => ⟨S160000x64, .f32⟩
  | 7 => ⟨S64, .f32⟩
  | 8 => ⟨S64x10000, .f32⟩
  | 9 => ⟨S10000, .f32⟩
  | 10 => ⟨S160000x64, .f32⟩
  | 11 => ⟨S64, .f32⟩
  | 12 => ⟨S64x1, .f32⟩
  | 13 => ⟨S1, .f32⟩
  | 14 => ⟨S1x320000, .i32⟩
  | 15 => ⟨S320000, .i32⟩
  | 16 => ⟨S1x320000, .i32⟩
  | 17 => ⟨S320000, .i32⟩
  | 18 => ⟨S10000, .i32⟩
  | 19 => ⟨S330000, .i32⟩
  | 20 => ⟨S330000, .i32⟩
  | 21 => ⟨S_, .f32⟩
  | 22 => ⟨S10000, .f32⟩
  | 23 => ⟨S_, .i32⟩
  | 24 => ⟨S330000, .i32⟩
  | 25 => ⟨S330000, .i1⟩
  | 26 => ⟨S_, .i32⟩
  | 27 => ⟨S330000, .i32⟩
  | 28 => ⟨S330000, .i32⟩
  | 29 => ⟨S330000, .i32⟩
  | 30 => ⟨S330000x1, .i32⟩
  | 31 => ⟨S_, .f32⟩
  | 32 => ⟨S330000, .f32⟩
  | 33 => ⟨S10000, .f32⟩
  | 34 => ⟨S10000, .f32⟩
  | 35 => ⟨S_, .i32⟩
  | 36 => ⟨S330000, .i32⟩
  | 37 => ⟨S330000, .i1⟩
  | 38 => ⟨S_, .i32⟩
  | 39 => ⟨S330000, .i32⟩
  | 40 => ⟨S330000, .i32⟩
  | 41 => ⟨S330000, .i32⟩
  | 42 => ⟨S330000x1, .i32⟩
  | 43 => ⟨S330000, .f32⟩
  | 44 => ⟨S_, .i32⟩
  | 45 => ⟨S330000, .i32⟩
  | 46 => ⟨S330000, .i1⟩
  | 47 => ⟨S_, .i32⟩
  | 48 => ⟨S330000, .i32⟩
  | 49 => ⟨S330000, .i32⟩
  | 50 => ⟨S330000, .i32⟩
  | 51 => ⟨S330000x1, .i32⟩
  | 52 => ⟨S330000, .f32⟩
  | 53 => ⟨S330000, .f32⟩
  | 54 => ⟨S10000x16, .f32⟩
  | 55 => ⟨S_, .i32⟩
  | 56 => ⟨S330000, .i32⟩
  | 57 => ⟨S330000, .i1⟩
  | 58 => ⟨S_, .i32⟩
  | 59 => ⟨S330000, .i32⟩
  | 60 => ⟨S330000, .i32⟩
  | 61 => ⟨S330000, .i32⟩
  | 62 => ⟨S330000x1, .i32⟩
  | 63 => ⟨S330000x16, .f32⟩
  | 64 => ⟨S330000x1, .f32⟩
  | 65 => ⟨S330000x16, .f32⟩
  | 66 => ⟨S330000x16, .f32⟩
  | 67 => ⟨S_, .f32⟩
  | 68 => ⟨S10000x16, .f32⟩
  | 69 => ⟨S_, .i32⟩
  | 70 => ⟨S330000, .i32⟩
  | 71 => ⟨S330000, .i1⟩
  | 72 => ⟨S_, .i32⟩
  | 73 => ⟨S330000, .i32⟩
  | 74 => ⟨S330000, .i32⟩
  | 75 => ⟨S330000, .i32⟩
  | 76 => ⟨S330000x1, .i32⟩
  | 77 => ⟨S10000x16, .f32⟩
  | 78 => ⟨S1x16, .f32⟩
  | 79 => ⟨S10000x16, .f32⟩
  | 80 => ⟨S10000x16, .f32⟩
  | 81 => ⟨S_, .f32⟩
  | 82 => ⟨S10000x16, .f32⟩
  | 83 => ⟨S10000x16, .f32⟩
  | 84 => ⟨S1x320000, .i32⟩
  | 85 => ⟨S320000, .i32⟩
  | 86 => ⟨S1x320000, .i32⟩
  | 87 => ⟨S320000, .i32⟩
  | 88 => ⟨S10000, .i32⟩
  | 89 => ⟨S330000, .i32⟩
  | 90 => ⟨S330000, .i32⟩
  | 91 => ⟨S_, .f32⟩
  | 92 => ⟨S10000, .f32⟩
  | 93 => ⟨S_, .i32⟩
  | 94 => ⟨S330000, .i32⟩
  | 95 => ⟨S330000, .i1⟩
  | 96 => ⟨S_, .i32⟩
  | 97 => ⟨S330000, .i32⟩
  | 98 => ⟨S330000, .i32⟩
  | 99 => ⟨S330000, .i32⟩
  | 100 => ⟨S330000x1, .i32⟩
  | 101 => ⟨S_, .f32⟩
  | 102 => ⟨S330000, .f32⟩
  | 103 => ⟨S10000, .f32⟩
  | 104 => ⟨S10000, .f32⟩
  | 105 => ⟨S_, .i32⟩
  | 106 => ⟨S330000, .i32⟩
  | 107 => ⟨S330000, .i1⟩
  | 108 => ⟨S_, .i32⟩
  | 109 => ⟨S330000, .i32⟩
  | 110 => ⟨S330000, .i32⟩
  | 111 => ⟨S330000, .i32⟩
  | 112 => ⟨S330000x1, .i32⟩
  | 113 => ⟨S330000, .f32⟩
  | 114 => ⟨S_, .i32⟩
  | 115 => ⟨S330000, .i32⟩
  | 116 => ⟨S330000, .i1⟩
  | 117 => ⟨S_, .i32⟩
  | 118 => ⟨S330000, .i32⟩
  | 119 => ⟨S330000, .i32⟩
  | 120 => ⟨S330000, .i32⟩
  | 121 => ⟨S330000x1, .i32⟩
  | 122 => ⟨S330000, .f32⟩
  | 123 => ⟨S330000, .f32⟩
  | 124 => ⟨S10000x16, .f32⟩
  | 125 => ⟨S_, .i32⟩
  | 126 => ⟨S330000, .i32⟩
  | 127 => ⟨S330000, .i1⟩
  | _ => ⟨S10000x4, .f32⟩

abbrev hbmTy0_1 (i : Nat) : BufTy := match i % 128 with
  | 0 => ⟨S_, .i32⟩
  | 1 => ⟨S330000, .i32⟩
  | 2 => ⟨S330000, .i32⟩
  | 3 => ⟨S330000, .i32⟩
  | 4 => ⟨S330000x1, .i32⟩
  | 5 => ⟨S330000x16, .f32⟩
  | 6 => ⟨S330000x1, .f32⟩
  | 7 => ⟨S330000x16, .f32⟩
  | 8 => ⟨S330000x16, .f32⟩
  | 9 => ⟨S_, .f32⟩
  | 10 => ⟨S10000x16, .f32⟩
  | 11 => ⟨S_, .i32⟩
  | 12 => ⟨S330000, .i32⟩
  | 13 => ⟨S330000, .i1⟩
  | 14 => ⟨S_, .i32⟩
  | 15 => ⟨S330000, .i32⟩
  | 16 => ⟨S330000, .i32⟩
  | 17 => ⟨S330000, .i32⟩
  | 18 => ⟨S330000x1, .i32⟩
  | 19 => ⟨S10000x16, .f32⟩
  | 20 => ⟨S1x16, .f32⟩
  | 21 => ⟨S10000x16, .f32⟩
  | 22 => ⟨S10000x16, .f32⟩
  | 23 => ⟨S_, .f32⟩
  | 24 => ⟨S10000x16, .f32⟩
  | 25 => ⟨S10000x16, .f32⟩
  | 26 => ⟨S1x160000, .f32⟩
  | 27 => ⟨S1x64, .f32⟩
  | 28 => ⟨S1x64, .f32⟩
  | 29 => ⟨S1x64, .f32⟩
  | 30 => ⟨S1x10000, .f32⟩
  | 31 => ⟨S1x64, .f32⟩
  | 32 => ⟨S1x1, .f32⟩
  | 33 => ⟨S1x10000, .f32⟩
  | 34 => ⟨S1x1, .f32⟩
  | _ => ⟨S10000x4, .f32⟩

abbrev hbmTy (i : Nat) : BufTy := match i / 128 with
  | 0 => hbmTy0_0 i
  | 1 => hbmTy0_1 i
  | _ => ⟨S10000x4, .f32⟩

abbrev bufTy : (tb : Table) → Fin (tcTables nBuf tb) → BufTy
  | .hbm, ⟨i, _⟩ => hbmTy i
  | .local _ .vmem, ⟨0, _⟩ => ⟨S1x3200, .f32⟩
  | .local _ .vmem, ⟨1, _⟩ => ⟨S1x3200, .f32⟩
  | .local _ .vmem, ⟨2, _⟩ => ⟨S3200x64, .f32⟩
  | .local _ .vmem, ⟨3, _⟩ => ⟨S3200x64, .f32⟩
  | .local _ .vmem, ⟨4, _⟩ => ⟨S3200x64, .f32⟩
  | .local _ .vmem, ⟨5, _⟩ => ⟨S3200x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x10000, .f32⟩
  | .local _ .vmem, ⟨11, _⟩ => ⟨S1x10000, .f32⟩
  | .local _ .vmem, ⟨12, _⟩ => ⟨S1x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S1x10000, .f32⟩
  | .local _ .vmem, ⟨17, _⟩ => ⟨S1x1, .f32⟩
  | _, _ => ⟨S10000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call0_cst : Ref sig .tc := ⟨.hbm, 81, rfl⟩
abbrev main_call0_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_c_12 : Ref sig .tc := ⟨.hbm, 93, rfl⟩
abbrev main_v63 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_14 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_15 : Ref sig .tc := ⟨.hbm, 105, rfl⟩
abbrev main_v72 : Ref sig .tc := ⟨.hbm, 106, rfl⟩
abbrev main_v73 : Ref sig .tc := ⟨.hbm, 107, rfl⟩
abbrev main_c_16 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_17 : Ref sig .tc := ⟨.hbm, 114, rfl⟩
abbrev main_v79 : Ref sig .tc := ⟨.hbm, 115, rfl⟩
abbrev main_v80 : Ref sig .tc := ⟨.hbm, 116, rfl⟩
abbrev main_c_18 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_19 : Ref sig .tc := ⟨.hbm, 125, rfl⟩
abbrev main_v88 : Ref sig .tc := ⟨.hbm, 126, rfl⟩
abbrev main_v89 : Ref sig .tc := ⟨.hbm, 127, rfl⟩
abbrev main_c_20 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_21 : Ref sig .tc := ⟨.hbm, 137, rfl⟩
abbrev main_v98 : Ref sig .tc := ⟨.hbm, 138, rfl⟩
abbrev main_c_22 : Ref sig .tc := ⟨.hbm, 139, rfl⟩
abbrev main_v99 : Ref sig .tc := ⟨.hbm, 140, rfl⟩
abbrev main_v100 : Ref sig .tc := ⟨.hbm, 141, rfl⟩
abbrev main_c_23 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_call1_cst : Ref sig .tc := ⟨.hbm, 151, rfl⟩
abbrev main_call1_v0 : Ref sig .tc := ⟨.hbm, 152, rfl⟩
abbrev main_v109 : Ref sig .tc := ⟨.hbm, 153, rfl⟩
abbrev main_v110 : Ref sig .tc := ⟨.hbm, 154, rfl⟩
abbrev main_v111_0 : Ref sig .tc := ⟨.hbm, 155, rfl⟩
abbrev main_v111_1 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116_0 : Ref sig .tc := ⟨.hbm, 161, rfl⟩
abbrev main_v116_1 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := .none

abbrev stage1_0 : Fin 1 → Memref sig .tc .vmem S1x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x10000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x10000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x10000 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S10000 : S_.BroadcastsInDim S10000 (![] : Fin 0 → Fin S10000.rank)
  bcast_S_S330000 : S_.BroadcastsInDim S330000 (![] : Fin 0 → Fin S330000.rank)
  bcast_S330000_S330000x1_0 : S330000.BroadcastsInDim S330000x1 (![0] : Fin 1 → Fin S330000x1.rank)
  bcast_S330000x1_S330000x16_0_1 : S330000x1.BroadcastsInDim S330000x16 (![0, 1] : Fin 2 → Fin S330000x16.rank)
  bcast_S_S10000x16 : S_.BroadcastsInDim S10000x16 (![] : Fin 0 → Fin S10000x16.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  shapeCasts_S10000x16_S1x160000 : S10000x16.ShapeCasts S1x160000
  inb_S1x64_S1x64_0_0 : ∀ a, (![0, 0] : Fin 2 → Nat) a + S1x64.size a ≤ S1x64.size a
  h_S1x64 : 0 < S1x64.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  shapeCasts_S1x64_S1x64 : S1x64.ShapeCasts S1x64
  inb_S3200x64_S3200x64_0_0 : ∀ a, (![0, 0] : Fin 2 → Nat) a + S3200x64.size a ≤ S3200x64.size a
  h_S3200x64 : 0 < S3200x64.numel
  shapeCasts_S64_S1x64 : S64.ShapeCasts S1x64
  shapeCasts_S10000_S1x10000 : S10000.ShapeCasts S1x10000
  shapeCasts_S1_S1x1 : S1.ShapeCasts S1x1
  shapeCasts_S1x64_S64x1 : S1x64.ShapeCasts S64x1
  inb_S64x10000_S64x10000_0_0 : ∀ a, (![0, 0] : Fin 2 → Nat) a + S64x10000.size a ≤ S64x10000.size a
  h_S64x10000 : 0 < S64x10000.numel
  broadcasts_S64x1_S64x10000 : S64x1.Broadcasts S64x10000
  reduces_S64x10000_S10000 : S64x10000.Reduces [0] S10000
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  reduces_S1x10000_S1 : S1x10000.Reduces [1] S1
  broadcasts_S1x1_S1x10000 : S1x1.Broadcasts S1x10000
  inb_S64x1_S64x1_0_0 : ∀ a, (![0, 0] : Fin 2 → Nat) a + S64x1.size a ≤ S64x1.size a
  h_S64x1 : 0 < S64x1.numel
  reduces_S64x1_S1 : S64x1.Reduces [0] S1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x4_S4x16_S10000x16_1_0_0_1_n_n_wf : DotDims.WF S10000x4 S4x16 S10000x16 [1] [0] [0] [1] [] []
  gather_S10000x16_S330000x1_S330000x16_1_0_n_n_0_1_116_wf : GatherDims.WF S10000x16 S330000x1 S330000x16 [1] [0] [] [0] [] 1 ![1, 16]
  scatter_S10000x16_S330000x1_S330000x16_1_0_0_1_wf : ScatterDims.WF S10000x16 S330000x1 S330000x16 [1] [0] [0] 1
  dot_S10000x16_S16x16_S10000x16_1_0_0_1_n_n_wf : DotDims.WF S10000x16 S16x16 S10000x16 [1] [0] [0] [1] [] []
  dot_S1x3200_S3200x64_S1x64_1_0_0_1_n_n_wf : DotDims.WF S1x3200 S3200x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3200.size a ≤ S1x160000.size a
  hwx0_0 : ∀ i : grid0.Coords, EltTy.bits .f32 = 32 ∨ (Rect.block (s := S1x160000) S1x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S160000x64.size a
  hwx0_1 : ∀ i : grid0.Coords, EltTy.bits .f32 = 32 ∨ (Rect.block (s := S160000x64) S3200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x64.size a ≤ S160000x64.size a
  hwx0_2 : ∀ i : grid0.Coords, EltTy.bits .f32 = 32 ∨ (Rect.block (s := S160000x64) S3200x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hstage1_7 : ∀ j, (stage1_7 j).IsWhole
  hstage1_8 : ∀ j, (stage1_8 j).IsWhole
  hstage1_9 : ∀ j, (stage1_9 j).IsWhole

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x4_S4x16_S10000x16_1_0_0_1_n_n : DotDims S10000x4 S4x16 S10000x16 where
  lhsContracting := [1]
  rhsContracting := [0]
  lhsNonContracting := [0]
  rhsNonContracting := [1]
  lhsBatch := []
  rhsBatch := []
  wf := dot_S10000x4_S4x16_S10000x16_1_0_0_1_n_n_wf
def gather_S10000x16_S330000x1_S330000x16_1_0_n_n_0_1_116 : GatherDims S10000x16 S330000x1 S330000x16 where
  offsetDims := [1]
  collapsedSliceDims := [0]
  operandBatchingDims := []
  startIndicesBatchingDims := []
  startIndexMap := [0]
  indexVectorDim := 1
  sliceSizes := ![1, 16]
  wf := gather_S10000x16_S330000x1_S330000x16_1_0_n_n_0_1_116_wf
def scatter_S10000x16_S330000x1_S330000x16_1_0_0_1 : ScatterDims S10000x16 S330000x1 S330000x16 where
  updateWindowDims := [1]
  insertedWindowDims := [0]
  scatterDimsToOperandDims := [0]
  indexVectorDim := 1
  wf := scatter_S10000x16_S330000x1_S330000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S1x3200_S3200x64_S1x64_1_0_0_1_n_n : DotDims S1x3200 S3200x64 S1x64 where
  lhsContracting := [1]
  rhsContracting := [0]
  lhsNonContracting := [0]
  rhsNonContracting := [1]
  lhsBatch := []
  rhsBatch := []
  wf := dot_S1x3200_S3200x64_S1x64_1_0_0_1_n_n_wf

abbrev win0_0 : Pipeline.Window sig grid0 :=
  Pipeline.Window.ofSpec (Memref.whole main_v110) S1x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S3200x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v111_0) S1x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v111_1) S1x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.whole (Memref.whole main_v111_0) false false (stage1_0 0) (sem1_0 0) (Memref.isWhole_whole _) (hstage1_0 0)

abbrev win1_1 : Pipeline.Window sig grid1 :=
  Pipeline.Window.whole (Memref.whole main_v112) false false (stage1_1 0) (sem1_1 0) (Memref.isWhole_whole _) (hstage1_1 0)

abbrev win1_2 : Pipeline.Window sig grid1 :=
  Pipeline.Window.whole (Memref.whole main_arg8) false false (stage1_2 0) (sem1_2 0) (Memref.isWhole_whole _) (hstage1_2 0)

abbrev win1_3 : Pipeline.Window sig grid1 :=
  Pipeline.Window.whole (Memref.whole main_v113) false false (stage1_3 0) (sem1_3 0) (Memref.isWhole_whole _) (hstage1_3 0)

abbrev win1_4 : Pipeline.Window sig grid1 :=
  Pipeline.Window.whole (Memref.whole main_v111_1) false false (stage1_4 0) (sem1_4 0) (Memref.isWhole_whole _) (hstage1_4 0)

abbrev win1_5 : Pipeline.Window sig grid1 :=
  Pipeline.Window.whole (Memref.whole main_v114) false false (stage1_5 0) (sem1_5 0) (Memref.isWhole_whole _) (hstage1_5 0)

abbrev win1_6 : Pipeline.Window sig grid1 :=
  Pipeline.Window.whole (Memref.whole main_arg12) false false (stage1_6 0) (sem1_6 0) (Memref.isWhole_whole _) (hstage1_6 0)

abbrev win1_7 : Pipeline.Window sig grid1 :=
  Pipeline.Window.whole (Memref.whole main_v115) false false (stage1_7 0) (sem1_7 0) (Memref.isWhole_whole _) (hstage1_7 0)

abbrev win1_8 : Pipeline.Window sig grid1 :=
  Pipeline.Window.whole (Memref.whole main_v116_0) true false (stage1_8 0) (sem1_8 0) (Memref.isWhole_whole _) (hstage1_8 0)

abbrev win1_9 : Pipeline.Window sig grid1 :=
  Pipeline.Window.whole (Memref.whole main_v116_1) true false (stage1_9 0) (sem1_9 0) (Memref.isWhole_whole _) (hstage1_9 0)

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S10000x4 : Shape := ⟨2, ![10000, 4]⟩
abbrev S2x320000 : Shape := ⟨2, ![2, 320000]⟩
abbrev S4x16 : Shape := ⟨2, ![4, 16]⟩
abbrev S16 : Shape := ⟨1, ![16]⟩
abbrev S16x16 : Shape := ⟨2, ![16, 16]⟩
abbrev S160000x64 : Shape := ⟨2, ![160000, 64]⟩
abbrev S64 : Shape := ⟨1, ![64]⟩
abbrev S64x10000 : Shape := ⟨2, ![64, 10000]⟩
abbrev S10000 : Shape := ⟨1, ![10000]⟩
abbrev S64x1 : Shape := ⟨2, ![64, 1]⟩
abbrev S1 : Shape := ⟨1, ![1]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10000x16 : Shape := ⟨2, ![10000, 16]⟩
abbrev S330000x16 : Shape := ⟨2, ![330000, 16]⟩
abbrev S1x16 : Shape := ⟨2, ![1, 16]⟩
abbrev S1x160000 : Shape := ⟨2, ![1, 160000]⟩
abbrev S1x64 : Shape := ⟨2, ![1, 64]⟩
abbrev S1x10000 : Shape := ⟨2, ![1, 10000]⟩
abbrev S1x1 : Shape := ⟨2, ![1, 1]⟩

abbrev nBuf : Space → Nat
  | .hbm => 189
  | .vmem => 0
  | .smem => 0
  | _ => 0

abbrev hbmTy0_0 (i : Nat) : BufTy := match i % 128 with
  | 0 => ⟨S10000x4, .f32⟩
  | 1 => ⟨S2x320000, .i32⟩
  | 2 => ⟨S4x16, .f32⟩
  | 3 => ⟨S16, .f32⟩
  | 4 => ⟨S16x16, .f32⟩
  | 5 => ⟨S16, .f32⟩
  | 6 => ⟨S160000x64, .f32⟩
  | 7 => ⟨S64, .f32⟩
  | 8 => ⟨S64x10000, .f32⟩
  | 9 => ⟨S10000, .f32⟩
  | 10 => ⟨S160000x64, .f32⟩
  | 11 => ⟨S64, .f32⟩
  | 12 => ⟨S64x1, .f32⟩
  | 13 => ⟨S1, .f32⟩
  | 14 => ⟨S1x320000, .i32⟩
  | 15 => ⟨S320000, .i32⟩
  | 16 => ⟨S1x320000, .i32⟩
  | 17 => ⟨S320000, .i32⟩
  | 18 => ⟨S10000, .i32⟩
  | 19 => ⟨S330000, .i32⟩
  | 20 => ⟨S330000, .i32⟩
  | 21 => ⟨S_, .f32⟩
  | 22 => ⟨S10000, .f32⟩
  | 23 => ⟨S_, .i32⟩
  | 24 => ⟨S330000, .i32⟩
  | 25 => ⟨S330000, .i1⟩
  | 26 => ⟨S_, .i32⟩
  | 27 => ⟨S330000, .i32⟩
  | 28 => ⟨S330000, .i32⟩
  | 29 => ⟨S330000, .i32⟩
  | 30 => ⟨S330000x1, .i32⟩
  | 31 => ⟨S_, .f32⟩
  | 32 => ⟨S330000, .f32⟩
  | 33 => ⟨S10000, .f32⟩
  | 34 => ⟨S10000, .f32⟩
  | 35 => ⟨S_, .i32⟩
  | 36 => ⟨S330000, .i32⟩
  | 37 => ⟨S330000, .i1⟩
  | 38 => ⟨S_, .i32⟩
  | 39 => ⟨S330000, .i32⟩
  | 40 => ⟨S330000, .i32⟩
  | 41 => ⟨S330000, .i32⟩
  | 42 => ⟨S330000x1, .i32⟩
  | 43 => ⟨S330000, .f32⟩
  | 44 => ⟨S_, .i32⟩
  | 45 => ⟨S330000, .i32⟩
  | 46 => ⟨S330000, .i1⟩
  | 47 => ⟨S_, .i32⟩
  | 48 => ⟨S330000, .i32⟩
  | 49 => ⟨S330000, .i32⟩
  | 50 => ⟨S330000, .i32⟩
  | 51 => ⟨S330000x1, .i32⟩
  | 52 => ⟨S330000, .f32⟩
  | 53 => ⟨S330000, .f32⟩
  | 54 => ⟨S10000x16, .f32⟩
  | 55 => ⟨S_, .i32⟩
  | 56 => ⟨S330000, .i32⟩
  | 57 => ⟨S330000, .i1⟩
  | 58 => ⟨S_, .i32⟩
  | 59 => ⟨S330000, .i32⟩
  | 60 => ⟨S330000, .i32⟩
  | 61 => ⟨S330000, .i32⟩
  | 62 => ⟨S330000x1, .i32⟩
  | 63 => ⟨S330000x16, .f32⟩
  | 64 => ⟨S330000x1, .f32⟩
  | 65 => ⟨S330000x16, .f32⟩
  | 66 => ⟨S330000x16, .f32⟩
  | 67 => ⟨S_, .f32⟩
  | 68 => ⟨S10000x16, .f32⟩
  | 69 => ⟨S_, .i32⟩
  | 70 => ⟨S330000, .i32⟩
  | 71 => ⟨S330000, .i1⟩
  | 72 => ⟨S_, .i32⟩
  | 73 => ⟨S330000, .i32⟩
  | 74 => ⟨S330000, .i32⟩
  | 75 => ⟨S330000, .i32⟩
  | 76 => ⟨S330000x1, .i32⟩
  | 77 => ⟨S10000x16, .f32⟩
  | 78 => ⟨S1x16, .f32⟩
  | 79 => ⟨S10000x16, .f32⟩
  | 80 => ⟨S10000x16, .f32⟩
  | 81 => ⟨S_, .f32⟩
  | 82 => ⟨S10000x16, .f32⟩
  | 83 => ⟨S10000x16, .f32⟩
  | 84 => ⟨S1x320000, .i32⟩
  | 85 => ⟨S320000, .i32⟩
  | 86 => ⟨S1x320000, .i32⟩
  | 87 => ⟨S320000, .i32⟩
  | 88 => ⟨S10000, .i32⟩
  | 89 => ⟨S330000, .i32⟩
  | 90 => ⟨S330000, .i32⟩
  | 91 => ⟨S_, .f32⟩
  | 92 => ⟨S10000, .f32⟩
  | 93 => ⟨S_, .i32⟩
  | 94 => ⟨S330000, .i32⟩
  | 95 => ⟨S330000, .i1⟩
  | 96 => ⟨S_, .i32⟩
  | 97 => ⟨S330000, .i32⟩
  | 98 => ⟨S330000, .i32⟩
  | 99 => ⟨S330000, .i32⟩
  | 100 => ⟨S330000x1, .i32⟩
  | 101 => ⟨S_, .f32⟩
  | 102 => ⟨S330000, .f32⟩
  | 103 => ⟨S10000, .f32⟩
  | 104 => ⟨S10000, .f32⟩
  | 105 => ⟨S_, .i32⟩
  | 106 => ⟨S330000, .i32⟩
  | 107 => ⟨S330000, .i1⟩
  | 108 => ⟨S_, .i32⟩
  | 109 => ⟨S330000, .i32⟩
  | 110 => ⟨S330000, .i32⟩
  | 111 => ⟨S330000, .i32⟩
  | 112 => ⟨S330000x1, .i32⟩
  | 113 => ⟨S330000, .f32⟩
  | 114 => ⟨S_, .i32⟩
  | 115 => ⟨S330000, .i32⟩
  | 116 => ⟨S330000, .i1⟩
  | 117 => ⟨S_, .i32⟩
  | 118 => ⟨S330000, .i32⟩
  | 119 => ⟨S330000, .i32⟩
  | 120 => ⟨S330000, .i32⟩
  | 121 => ⟨S330000x1, .i32⟩
  | 122 => ⟨S330000, .f32⟩
  | 123 => ⟨S330000, .f32⟩
  | 124 => ⟨S10000x16, .f32⟩
  | 125 => ⟨S_, .i32⟩
  | 126 => ⟨S330000, .i32⟩
  | 127 => ⟨S330000, .i1⟩
  | _ => ⟨S10000x4, .f32⟩

abbrev hbmTy0_1 (i : Nat) : BufTy := match i % 128 with
  | 0 => ⟨S_, .i32⟩
  | 1 => ⟨S330000, .i32⟩
  | 2 => ⟨S330000, .i32⟩
  | 3 => ⟨S330000, .i32⟩
  | 4 => ⟨S330000x1, .i32⟩
  | 5 => ⟨S330000x16, .f32⟩
  | 6 => ⟨S330000x1, .f32⟩
  | 7 => ⟨S330000x16, .f32⟩
  | 8 => ⟨S330000x16, .f32⟩
  | 9 => ⟨S_, .f32⟩
  | 10 => ⟨S10000x16, .f32⟩
  | 11 => ⟨S_, .i32⟩
  | 12 => ⟨S330000, .i32⟩
  | 13 => ⟨S330000, .i1⟩
  | 14 => ⟨S_, .i32⟩
  | 15 => ⟨S330000, .i32⟩
  | 16 => ⟨S330000, .i32⟩
  | 17 => ⟨S330000, .i32⟩
  | 18 => ⟨S330000x1, .i32⟩
  | 19 => ⟨S10000x16, .f32⟩
  | 20 => ⟨S1x16, .f32⟩
  | 21 => ⟨S10000x16, .f32⟩
  | 22 => ⟨S10000x16, .f32⟩
  | 23 => ⟨S_, .f32⟩
  | 24 => ⟨S10000x16, .f32⟩
  | 25 => ⟨S10000x16, .f32⟩
  | 26 => ⟨S1x160000, .f32⟩
  | 27 => ⟨S1x64, .f32⟩
  | 28 => ⟨S1x64, .f32⟩
  | 29 => ⟨S1x64, .f32⟩
  | 30 => ⟨S_, .f32⟩
  | 31 => ⟨S1x64, .f32⟩
  | 32 => ⟨S1x64, .f32⟩
  | 33 => ⟨S1x10000, .f32⟩
  | 34 => ⟨S1x10000, .f32⟩
  | 35 => ⟨S1x10000, .f32⟩
  | 36 => ⟨S_, .f32⟩
  | 37 => ⟨S1, .f32⟩
  | 38 => ⟨S_, .f32⟩
  | 39 => ⟨S1, .f32⟩
  | 40 => ⟨S1, .f32⟩
  | 41 => ⟨S1x1, .f32⟩
  | 42 => ⟨S1x10000, .f32⟩
  | 43 => ⟨S1x10000, .f32⟩
  | 44 => ⟨S1x10000, .f32⟩
  | 45 => ⟨S_, .f32⟩
  | 46 => ⟨S1, .f32⟩
  | 47 => ⟨S1x1, .f32⟩
  | 48 => ⟨S1x1, .f32⟩
  | 49 => ⟨S1x10000, .f32⟩
  | 50 => ⟨S1x10000, .f32⟩
  | 51 => ⟨S1x64, .f32⟩
  | 52 => ⟨S1x64, .f32⟩
  | 53 => ⟨S1x64, .f32⟩
  | 54 => ⟨S_, .f32⟩
  | 55 => ⟨S1x64, .f32⟩
  | 56 => ⟨S1x64, .f32⟩
  | 57 => ⟨S1x1, .f32⟩
  | 58 => ⟨S1x1, .f32⟩
  | 59 => ⟨S1x1, .f32⟩
  | 60 => ⟨S1x1, .f32⟩
  | _ => ⟨S10000x4, .f32⟩

abbrev hbmTy (i : Nat) : BufTy := match i / 128 with
  | 0 => hbmTy0_0 i
  | 1 => hbmTy0_1 i
  | _ => ⟨S10000x4, .f32⟩

abbrev bufTy : (tb : Table) → Fin (tcTables nBuf tb) → BufTy
  | .hbm, ⟨i, _⟩ => hbmTy i
  | _, _ => ⟨S10000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call0_cst : Ref sig .tc := ⟨.hbm, 81, rfl⟩
abbrev main_call0_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_c_12 : Ref sig .tc := ⟨.hbm, 93, rfl⟩
abbrev main_v63 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_14 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_15 : Ref sig .tc := ⟨.hbm, 105, rfl⟩
abbrev main_v72 : Ref sig .tc := ⟨.hbm, 106, rfl⟩
abbrev main_v73 : Ref sig .tc := ⟨.hbm, 107, rfl⟩
abbrev main_c_16 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_17 : Ref sig .tc := ⟨.hbm, 114, rfl⟩
abbrev main_v79 : Ref sig .tc := ⟨.hbm, 115, rfl⟩
abbrev main_v80 : Ref sig .tc := ⟨.hbm, 116, rfl⟩
abbrev main_c_18 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_19 : Ref sig .tc := ⟨.hbm, 125, rfl⟩
abbrev main_v88 : Ref sig .tc := ⟨.hbm, 126, rfl⟩
abbrev main_v89 : Ref sig .tc := ⟨.hbm, 127, rfl⟩
abbrev main_c_20 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_21 : Ref sig .tc := ⟨.hbm, 137, rfl⟩
abbrev main_v98 : Ref sig .tc := ⟨.hbm, 138, rfl⟩
abbrev main_c_22 : Ref sig .tc := ⟨.hbm, 139, rfl⟩
abbrev main_v99 : Ref sig .tc := ⟨.hbm, 140, rfl⟩
abbrev main_v100 : Ref sig .tc := ⟨.hbm, 141, rfl⟩
abbrev main_c_23 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_call1_cst : Ref sig .tc := ⟨.hbm, 151, rfl⟩
abbrev main_call1_v0 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_call2_cst : Ref sig .tc := ⟨.hbm, 158, rfl⟩
abbrev main_call2_v0 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_call3_cst : Ref sig .tc := ⟨.hbm, 164, rfl⟩
abbrev main_call3_v0 : Ref sig .tc := ⟨.hbm, 165, rfl⟩
abbrev main_call3_cst_0 : Ref sig .tc := ⟨.hbm, 166, rfl⟩
abbrev main_call3_v1 : Ref sig .tc := ⟨.hbm, 167, rfl⟩
abbrev main_call3_v2 : Ref sig .tc := ⟨.hbm, 168, rfl⟩
abbrev main_call3_v3 : Ref sig .tc := ⟨.hbm, 169, rfl⟩
abbrev main_call3_v4 : Ref sig .tc := ⟨.hbm, 170, rfl⟩
abbrev main_call3_v5 : Ref sig .tc := ⟨.hbm, 171, rfl⟩
abbrev main_call3_v6 : Ref sig .tc := ⟨.hbm, 172, rfl⟩
abbrev main_call3_cst_1 : Ref sig .tc := ⟨.hbm, 173, rfl⟩
abbrev main_call3_v7 : Ref sig .tc := ⟨.hbm, 174, rfl⟩
abbrev main_call3_v8 : Ref sig .tc := ⟨.hbm, 175, rfl⟩
abbrev main_call3_v9 : Ref sig .tc := ⟨.hbm, 176, rfl⟩
abbrev main_call3_v10 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_call4_cst : Ref sig .tc := ⟨.hbm, 182, rfl⟩
abbrev main_call4_v0 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S10000 : S_.BroadcastsInDim S10000 (![] : Fin 0 → Fin S10000.rank)
  bcast_S_S330000 : S_.BroadcastsInDim S330000 (![] : Fin 0 → Fin S330000.rank)
  bcast_S330000_S330000x1_0 : S330000.BroadcastsInDim S330000x1 (![0] : Fin 1 → Fin S330000x1.rank)
  bcast_S330000x1_S330000x16_0_1 : S330000x1.BroadcastsInDim S330000x16 (![0, 1] : Fin 2 → Fin S330000x16.rank)
  bcast_S_S10000x16 : S_.BroadcastsInDim S10000x16 (![] : Fin 0 → Fin S10000x16.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  shapeCasts_S10000x16_S1x160000 : S10000x16.ShapeCasts S1x160000
  bcast_S64_S1x64_1 : S64.BroadcastsInDim S1x64 (![1] : Fin 1 → Fin S1x64.rank)
  bcast_S_S1x64 : S_.BroadcastsInDim S1x64 (![] : Fin 0 → Fin S1x64.rank)
  bcast_S10000_S1x10000_1 : S10000.BroadcastsInDim S1x10000 (![1] : Fin 1 → Fin S1x10000.rank)
  reducesTo_S1x10000_S1_d1 : S1x10000.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x10000_0_1 : S1x1.BroadcastsInDim S1x10000 (![0, 1] : Fin 2 → Fin S1x10000.rank)
  bcast_S1_S1x1_1 : S1.BroadcastsInDim S1x1 (![1] : Fin 1 → Fin S1x1.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x4_S4x16_S10000x16_1_0_0_1_n_n_wf : DotDims.WF S10000x4 S4x16 S10000x16 [1] [0] [0] [1] [] []
  gather_S10000x16_S330000x1_S330000x16_1_0_n_n_0_1_116_wf : GatherDims.WF S10000x16 S330000x1 S330000x16 [1] [0] [] [0] [] 1 ![1, 16]
  scatter_S10000x16_S330000x1_S330000x16_1_0_0_1_wf : ScatterDims.WF S10000x16 S330000x1 S330000x16 [1] [0] [0] 1
  dot_S10000x16_S16x16_S10000x16_1_0_0_1_n_n_wf : DotDims.WF S10000x16 S16x16 S10000x16 [1] [0] [0] [1] [] []
  dot_S1x160000_S160000x64_S1x64_1_0_0_1_n_n_wf : DotDims.WF S1x160000 S160000x64 S1x64 [1] [0] [0] [1] [] []
  dot_S1x64_S64x10000_S1x10000_1_0_0_1_n_n_wf : DotDims.WF S1x64 S64x10000 S1x10000 [1] [0] [0] [1] [] []
  dot_S1x64_S64x1_S1x1_1_0_0_1_n_n_wf : DotDims.WF S1x64 S64x1 S1x1 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x4_S4x16_S10000x16_1_0_0_1_n_n : DotDims S10000x4 S4x16 S10000x16 where
  lhsContracting := [1]
  rhsContracting := [0]
  lhsNonContracting := [0]
  rhsNonContracting := [1]
  lhsBatch := []
  rhsBatch := []
  wf := dot_S10000x4_S4x16_S10000x16_1_0_0_1_n_n_wf
def gather_S10000x16_S330000x1_S330000x16_1_0_n_n_0_1_116 : GatherDims S10000x16 S330000x1 S330000x16 where
  offsetDims := [1]
  collapsedSliceDims := [0]
  operandBatchingDims := []
  startIndicesBatchingDims := []
  startIndexMap := [0]
  indexVectorDim := 1
  sliceSizes := ![1, 16]
  wf := gather_S10000x16_S330000x1_S330000x16_1_0_n_n_0_1_116_wf
def scatter_S10000x16_S330000x1_S330000x16_1_0_0_1 : ScatterDims S10000x16 S330000x1 S330000x16 where
  updateWindowDims := [1]
  insertedWindowDims := [0]
  scatterDimsToOperandDims := [0]
  indexVectorDim := 1
  wf := scatter_S10000x16_S330000x1_S330000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S1x160000_S160000x64_S1x64_1_0_0_1_n_n : DotDims S1x160000 S160000x64 S1x64 where
  lhsContracting := [1]
  rhsContracting := [0]
  lhsNonContracting := [0]
  rhsNonContracting := [1]
  lhsBatch := []
  rhsBatch := []
  wf := dot_S1x160000_S160000x64_S1x64_1_0_0_1_n_n_wf
def dot_S1x64_S64x10000_S1x10000_1_0_0_1_n_n : DotDims S1x64 S64x10000 S1x10000 where
  lhsContracting := [1]
  rhsContracting := [0]
  lhsNonContracting := [0]
  rhsNonContracting := [1]
  lhsBatch := []
  rhsBatch := []
  wf := dot_S1x64_S64x10000_S1x10000_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.KernelRun.lean ====
/-
  The idealized kernel's run, read whole: every weakly fair execution of its @main — five stretches of host
  operations, the first matrix-vector kernel, four reshapes, the second kernel — terminates, and every buffer that
  outlives a kernel ends at the contents the last segment boundary names (`W8`). The two result arrays and the
  fourteen argument arrays are among those buffers, so their final contents are `W8` read at their references.
-/
import proofs.«180378_g18657337934107_cont_8to1_35_7_alg».proof.Proof.Gen.KernelIdeal.Frame

set_option maxRecDepth 16384

noncomputable section

open Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
namespace Cert.KernelIdeal.Head

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its whole final memory named: every unscoped TensorCore buffer ends at `W8`, the contents at the
    last segment boundary (the second kernel's exit). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run, read at the two results and the fourteen arguments. -/
theorem run_outs : θ_run defs (onTc (τ := τ) (main (F := F))) ⟨m, fun _ => 0, ρ⟩ (fun r => ∀ c : Dev nD,
      r.2.mem ((c.tc : Thread nD τ).loc main_v116_0) = W8 m ρ c (Proc.devRef .tc main_v116_0)
      ∧ r.2.mem ((c.tc : Thread nD τ).loc main_v116_1) = W8 m ρ c (Proc.devRef .tc main_v116_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun s h c =>
      ⟨h c _ (mem_uc main_v116_0 (by decide)), h c _ (mem_uc main_v116_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)
    (run_all m ρ)

end Cert.KernelIdeal.Head

end
-- ==== Proof.RefRun.lean ====
/-
  The reference's run, read back in two parts: the 141 host operations up to the flattened feature row (the two
  graph-convolution layers), whose result is that row's stage of the first six arguments, and the 34 operations of
  the two heads, read over whatever the first part left — so the feature row stays one name while the heads'
  operations are composed. Every weakly fair execution terminates with the two results at their stages' values of
  the arguments, and no operation writes an argument.
-/
import proofs.«180378_g18657337934107_cont_8to1_35_7_alg».proof.Proof.RefOpsP
import proofs.«180378_g18657337934107_cont_8to1_35_7_alg».proof.Proof.RefReadP
import Idealize.ShloMosaic.Lib.StableHlo.Run

set_option maxRecDepth 16384

noncomputable section

open Idealize.ShloMosaic Idealize.ShloMosaic.TcCoe Idealize.SL.Sem

namespace Cert.ReferenceIdeal.RefRun

open Cert.ReferenceIdeal Cert.ReferenceIdeal.Gen Idealize.ShloMosaic.StableHlo
open Cert.ReferenceIdeal.ValueP Cert.ReferenceIdeal.ReadP

variable {F : FTy → Type} [FloatOps F]

/-- Running one list of operations after another is running their concatenation. -/
theorem after_append (l1 l2 : List (HloOp τ sig (Elt F))) (V : Valuation τ sig (Elt F)) :
    after (l1 ++ l2) V = after l2 (after l1 V) := by
  induction l1 generalizing V with
  | nil => rfl
  | cons op l ih => exact ih _

/-- Any list of operations runs as its first `k` and then the rest. -/
theorem after_td (l : List (HloOp τ sig (Elt F))) (k : ℕ) (V : Valuation τ sig (Elt F)) :
    after l V = after (l.drop k) (after (l.take k) V) := by
  rw [← after_append, List.take_append_drop]

/-- One operation at a time: an operation's own buffer holds its function of its operands' contents, any other
    buffer what it held. -/
macro "walk_results" : tactic =>
  `(tactic| (dsimp only [List.take_succ_cons, List.take_zero, List.drop_succ_cons, List.drop_zero, after_cons, after_nil]
             simp (disch := decide) only [
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

set_option maxRecDepth 200000 in
set_option maxHeartbeats 100000000 in
/-- After the first part the flattened feature row holds its stage's value of the first six arguments. -/
theorem pre_flat (m : (ℓ : Loc nD τ sig) → Buf (Elt F) ℓ) (c : Dev nD) :
    after ((ops (F := F)).take 141) (launchContents m c) (Proc.devRef .tc main_v110)
      = val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  walk_results <;> rfl

set_option maxRecDepth 200000 in
set_option maxHeartbeats 100000000 in
/-- The first part writes none of the heads' eight arguments. -/
theorem pre_keep6 (m : (ℓ : Loc nD τ sig) → Buf (Elt F) ℓ) (c : Dev nD) :
    after ((ops (F := F)).take 141) (launchContents m c) (Proc.devRef .tc main_arg6) = m ((c.tc : Thread nD τ).loc main_arg6) := by
  walk_results <;> rfl

set_option maxRecDepth 200000 in
set_option maxHeartbeats 100000000 in
theorem pre_keep7 (m : (ℓ : Loc nD τ sig) → Buf (Elt F) ℓ) (c : Dev nD) :
    after ((ops (F := F)).take 141) (launchContents m c) (Proc.devRef .tc main_arg7) = m ((c.tc : Thread nD τ).loc main_arg7) := by
  walk_results <;> rfl

set_option maxRecDepth 200000 in
set_option maxHeartbeats 100000000 in
theorem pre_keep8 (m : (ℓ : Loc nD τ sig) → Buf (Elt F) ℓ) (c : Dev nD) :
    after ((ops (F := F)).take 141) (launchContents m c) (Proc.devRef .tc main_arg8) = m ((c.tc : Thread nD τ).loc main_arg8) := by
  walk_results <;> rfl

set_option maxRecDepth 200000 in
set_option maxHeartbeats 100000000 in
theorem pre_keep9 (m : (ℓ : Loc nD τ sig) → Buf (Elt F) ℓ) (c : Dev nD) :
    after ((ops (F := F)).take 141) (launchContents m c) (Proc.devRef .tc main_arg9) = m ((c.tc : Thread nD τ).loc main_arg9) := by
  walk_results <;> rfl

set_option maxRecDepth 200000 in
set_option maxHeartbeats 100000000 in
theorem pre_keep10 (m : (ℓ : Loc nD τ sig) → Buf (Elt F) ℓ) (c : Dev nD) :
    after ((ops (F := F)).take 141) (launchContents m c) (Proc.devRef .tc main_arg10) = m ((c.tc : Thread nD τ).loc main_arg10) := by
  walk_results <;> rfl

set_option maxRecDepth 200000 in
set_option maxHeartbeats 100000000 in
theorem pre_keep11 (m : (ℓ : Loc nD τ sig) → Buf (Elt F) ℓ) (c : Dev nD) :
    after ((ops (F := F)).take 141) (launchContents m c) (Proc.devRef .tc main_arg11) = m ((c.tc : Thread nD τ).loc main_arg11) := by
  walk_results <;> rfl

set_option maxRecDepth 200000 in
set_option maxHeartbeats 100000000 in
theorem pre_keep12 (m : (ℓ : Loc nD τ sig) → Buf (Elt F) ℓ) (c : Dev nD) :
    after ((ops (F := F)).take 141) (launchContents m c) (Proc.devRef .tc main_arg12) = m ((c.tc : Thread nD τ).loc main_arg12) := by
  walk_results <;> rfl

set_option maxRecDepth 200000 in
set_option maxHeartbeats 100000000 in
theorem pre_keep13 (m : (ℓ : Loc nD τ sig) → Buf (Elt F) ℓ) (c : Dev nD) :
    after ((ops (F := F)).take 141) (launchContents m c) (Proc.devRef .tc main_arg13) = m ((c.tc : Thread nD τ).loc main_arg13) := by
  walk_results <;> rfl

set_option maxRecDepth 200000 in
set_option maxHeartbeats 100000000 in
/-- No operation writes an argument. -/
theorem keep0 (m : (ℓ : Loc nD τ sig) → Buf (Elt F) ℓ) (c : Dev nD) :
    after (ops (F := F)) (launchContents m c) (Proc.devRef .tc main_arg0) = m ((c.tc : Thread nD τ).loc main_arg0) := by
  walk_results <;> rfl

set_option maxRecDepth 200000 in
set_option maxHeartbeats 100000000 in
theorem keep1 (m : (ℓ : Loc nD τ sig) → Buf (Elt F) ℓ) (c : Dev nD) :
    after (ops (F := F)) (launchContents m c) (Proc.devRef .tc main_arg1) = m ((c.tc : Thread nD τ).loc main_arg1) := by
  walk_results <;> rfl

set_option maxRecDepth 200000 in
set_option maxHeartbeats 100000000 in
theorem keep2 (m : (ℓ : Loc nD τ sig) → Buf (Elt F) ℓ) (c : Dev nD) :
    after (ops (F := F)) (launchContents m c) (Proc.devRef .tc main_arg2) = m ((c.tc : Thread nD τ).loc main_arg2) := by
  walk_results <;> rfl

set_option maxRecDepth 200000 in
set_option maxHeartbeats 100000000 in
theorem keep3 (m : (ℓ : Loc nD τ sig) → Buf (Elt F) ℓ) (c : Dev nD) :
    after (ops (F := F)) (launchContents m c) (Proc.devRef .tc main_arg3) = m ((c.tc : Thread nD τ).loc main_arg3) := by
  walk_results <;> rfl

set_option maxRecDepth 200000 in
set_option maxHeartbeats 100000000 in
theorem keep4 (m : (ℓ : Loc nD τ sig) → Buf (Elt F) ℓ) (c : Dev nD) :
    after (ops (F := F)) (launchContents m c) (Proc.devRef .tc main_arg4) = m ((c.tc : Thread nD τ).loc main_arg4) := by
  walk_results <;> rfl

set_option maxRecDepth 200000 in
set_option maxHeartbeats 100000000 in
theorem keep5 (m : (ℓ : Loc nD τ sig) → Buf (Elt F) ℓ) (c : Dev nD) :
    after (ops (F := F)) (launchContents m c) (Proc.devRef .tc main_arg5) = m ((c.tc : Thread nD τ).loc main_arg5) := by
  walk_results <;> rfl

set_option maxRecDepth 200000 in
set_option maxHeartbeats 100000000 in
theorem keep6 (m : (ℓ : Loc nD τ sig) → Buf (Elt F) ℓ) (c : Dev nD) :
    after (ops (F := F)) (launchContents m c) (Proc.devRef .tc main_arg6) = m ((c.tc : Thread nD τ).loc main_arg6) := by
  walk_results <;> rfl

set_option maxRecDepth 200000 in
set_option maxHeartbeats 100000000 in
theorem keep7 (m : (ℓ : Loc nD τ sig) → Buf (Elt F) ℓ) (c : Dev nD) :
    after (ops (F := F)) (launchContents m c) (Proc.devRef .tc main_arg7) = m ((c.tc : Thread nD τ).loc main_arg7) := by
  walk_results <;> rfl

set_option maxRecDepth 200000 in
set_option maxHeartbeats 100000000 in
theorem keep8 (m : (ℓ : Loc nD τ sig) → Buf (Elt F) ℓ) (c : Dev nD) :
    after (ops (F := F)) (launchContents m c) (Proc.devRef .tc main_arg8) = m ((c.tc : Thread nD τ).loc main_arg8) := by
  walk_results <;> rfl

set_option maxRecDepth 200000 in
set_option maxHeartbeats 100000000 in
theorem keep9 (m : (ℓ : Loc nD τ sig) → Buf (Elt F) ℓ) (c : Dev nD) :
    after (ops (F := F)) (launchContents m c) (Proc.devRef .tc main_arg9) = m ((c.tc : Thread nD τ).loc main_arg9) := by
  walk_results <;> rfl

set_option maxRecDepth 200000 in
set_option maxHeartbeats 100000000 in
theorem keep10 (m : (ℓ : Loc nD τ sig) → Buf (Elt F) ℓ) (c : Dev nD) :
    after (ops (F := F)) (launchContents m c) (Proc.devRef .tc main_arg10) = m ((c.tc : Thread nD τ).loc main_arg10) := by
  walk_results <;> rfl

set_option maxRecDepth 200000 in
set_option maxHeartbeats 100000000 in
theorem keep11 (m : (ℓ : Loc nD τ sig) → Buf (Elt F) ℓ) (c : Dev nD) :
    after (ops (F := F)) (launchContents m c) (Proc.devRef .tc main_arg11) = m ((c.tc : Thread nD τ).loc main_arg11) := by
  walk_results <;> rfl

set_option maxRecDepth 200000 in
set_option maxHeartbeats 100000000 in
theorem keep12 (m : (ℓ : Loc nD τ sig) → Buf (Elt F) ℓ) (c : Dev nD) :
    after (ops (F := F)) (launchContents m c) (Proc.devRef .tc main_arg12) = m ((c.tc : Thread nD τ).loc main_arg12) := by
  walk_results <;> rfl

set_option maxRecDepth 200000 in
set_option maxHeartbeats 100000000 in
theorem keep13 (m : (ℓ : Loc nD τ sig) → Buf (Elt F) ℓ) (c : Dev nD) :
    after (ops (F := F)) (launchContents m c) (Proc.devRef .tc main_arg13) = m ((c.tc : Thread nD τ).loc main_arg13) := by
  walk_results <;> rfl

set_option maxRecDepth 200000 in
set_option maxHeartbeats 100000000 in
/-- The first result: the policy head's stage of the arguments. -/
theorem res_logp (m : (ℓ : Loc nD τ sig) → Buf (Elt F) ℓ) (c : Dev nD) :
    after (ops (F := F)) (launchContents m c) (Proc.devRef .tc main_v118)
      = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have h110 := pre_flat m c
  have h6 := pre_keep6 m c
  have h7 := pre_keep7 m c
  have h8 := pre_keep8 m c
  have h9 := pre_keep9 m c
  have h10 := pre_keep10 m c
  have h11 := pre_keep11 m c
  have h12 := pre_keep12 m c
  have h13 := pre_keep13 m c
  rw [after_td (ops (F := F)) 141]
  generalize after (List.take 141 (ops (F := F))) (launchContents m c) = V1 at h110 h6 h7 h8 h9 h10 h11 h12 h13 ⊢
  rw [after_td (List.drop 141 (ops (F := F))) 6, after_td (List.drop 6 (List.drop 141 (ops (F := F)))) 3, after_td (List.drop 3 (List.drop 6 (List.drop 141 (ops (F := F))))) 15]
  simp only [List.drop_succ_cons, List.drop_zero, List.take_succ_cons, List.take_zero]
  generalize hV2 : after _ V1 = V2
  have a114 : V2 (Proc.devRef .tc main_v114) = val_main_v114 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
    rw [← hV2]
    walk_results
    rw [h110, h6, h7]
    try simp only [cast_eq]
    unfold val_main_v114 val_main_call2_v0 val_main_call2_cst val_main_v113 val_main_v112 val_main_v111
    rfl
  have a110 : V2 (Proc.devRef .tc main_v110) = val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
    rw [← hV2]
    walk_results
    exact h110
  have a8 : V2 (Proc.devRef .tc main_arg8) = m ((c.tc : Thread nD τ).loc main_arg8) := by
    rw [← hV2]
    walk_results
    exact h8
  have a9 : V2 (Proc.devRef .tc main_arg9) = m ((c.tc : Thread nD τ).loc main_arg9) := by
    rw [← hV2]
    walk_results
    exact h9
  have a10 : V2 (Proc.devRef .tc main_arg10) = m ((c.tc : Thread nD τ).loc main_arg10) := by
    rw [← hV2]
    walk_results
    exact h10
  have a11 : V2 (Proc.devRef .tc main_arg11) = m ((c.tc : Thread nD τ).loc main_arg11) := by
    rw [← hV2]
    walk_results
    exact h11
  have a12 : V2 (Proc.devRef .tc main_arg12) = m ((c.tc : Thread nD τ).loc main_arg12) := by
    rw [← hV2]
    walk_results
    exact h12
  have a13 : V2 (Proc.devRef .tc main_arg13) = m ((c.tc : Thread nD τ).loc main_arg13) := by
    rw [← hV2]
    walk_results
    exact h13
  clear hV2 h110 h6 h7 h8 h9 h10 h11 h12 h13
  generalize hV3 : after _ V2 = V3
  have b117 : V3 (Proc.devRef .tc main_v117) = val_main_v117 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
    rw [← hV3]
    walk_results
    rw [a114, a8, a9]
    try simp only [cast_eq]
    unfold val_main_v117 val_main_v116 val_main_v115
    rfl
  have b110 : V3 (Proc.devRef .tc main_v110) = val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
    rw [← hV3]
    walk_results
    exact a110
  have b10 : V3 (Proc.devRef .tc main_arg10) = m ((c.tc : Thread nD τ).loc main_arg10) := by
    rw [← hV3]
    walk_results
    exact a10
  have b11 : V3 (Proc.devRef .tc main_arg11) = m ((c.tc : Thread nD τ).loc main_arg11) := by
    rw [← hV3]
    walk_results
    exact a11
  have b12 : V3 (Proc.devRef .tc main_arg12) = m ((c.tc : Thread nD τ).loc main_arg12) := by
    rw [← hV3]
    walk_results
    exact a12
  have b13 : V3 (Proc.devRef .tc main_arg13) = m ((c.tc : Thread nD τ).loc main_arg13) := by
    rw [← hV3]
    walk_results
    exact a13
  clear hV3 a114 a110 a8 a9 a10 a11 a12 a13
  generalize hV4 : after _ V3 = V4
  have c118 : V4 (Proc.devRef .tc main_v118) = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
    rw [← hV4]
    walk_results
    rw [b117]
    try simp only [cast_eq]
    unfold val_main_v118 val_main_call3_v10 val_main_call3_v9 val_main_call3_v8 val_main_call3_v7 val_main_call3_cst_1 val_main_call3_v6 val_main_call3_v5 val_main_call3_v4 val_main_call3_v3 val_main_call3_v2 val_main_call3_v1 val_main_call3_cst_0 val_main_call3_v0 val_main_call3_cst
    rfl
  have c110 : V4 (Proc.devRef .tc main_v110) = val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
    rw [← hV4]
    walk_results
    exact b110
  have c10 : V4 (Proc.devRef .tc main_arg10) = m ((c.tc : Thread nD τ).loc main_arg10) := by
    rw [← hV4]
    walk_results
    exact b10
  have c11 : V4 (Proc.devRef .tc main_arg11) = m ((c.tc : Thread nD τ).loc main_arg11) := by
    rw [← hV4]
    walk_results
    exact b11
  have c12 : V4 (Proc.devRef .tc main_arg12) = m ((c.tc : Thread nD τ).loc main_arg12) := by
    rw [← hV4]
    walk_results
    exact b12
  have c13 : V4 (Proc.devRef .tc main_arg13) = m ((c.tc : Thread nD τ).loc main_arg13) := by
    rw [← hV4]
    walk_results
    exact b13
  clear hV4 b117 b110 b10 b11 b12 b13
  walk_results
  exact c118

set_option maxRecDepth 200000 in
set_option maxHeartbeats 100000000 in
/-- The second result: the value head's stage of the arguments. -/
theorem res_value (m : (ℓ : Loc nD τ sig) → Buf (Elt F) ℓ) (c : Dev nD) :
    after (ops (F := F)) (launchContents m c) (Proc.devRef .tc main_v126)
      = val_main_v126 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) := by
  have h110 := pre_flat m c
  have h6 := pre_keep6 m c
  have h7 := pre_keep7 m c
  have h8 := pre_keep8 m c
  have h9 := pre_keep9 m c
  have h10 := pre_keep10 m c
  have h11 := pre_keep11 m c
  have h12 := pre_keep12 m c
  have h13 := pre_keep13 m c
  rw [after_td (ops (F := F)) 141]
  generalize after (List.take 141 (ops (F := F))) (launchContents m c) = V1 at h110 h6 h7 h8 h9 h10 h11 h12 h13 ⊢
  rw [after_td (List.drop 141 (ops (F := F))) 6, after_td (List.drop 6 (List.drop 141 (ops (F := F)))) 3, after_td (List.drop 3 (List.drop 6 (List.drop 141 (ops (F := F))))) 15]
  simp only [List.drop_succ_cons, List.drop_zero, List.take_succ_cons, List.take_zero]
  generalize hV2 : after _ V1 = V2
  have a114 : V2 (Proc.devRef .tc main_v114) = val_main_v114 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
    rw [← hV2]
    walk_results
    rw [h110, h6, h7]
    try simp only [cast_eq]
    unfold val_main_v114 val_main_call2_v0 val_main_call2_cst val_main_v113 val_main_v112 val_main_v111
    rfl
  have a110 : V2 (Proc.devRef .tc main_v110) = val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
    rw [← hV2]
    walk_results
    exact h110
  have a8 : V2 (Proc.devRef .tc main_arg8) = m ((c.tc : Thread nD τ).loc main_arg8) := by
    rw [← hV2]
    walk_results
    exact h8
  have a9 : V2 (Proc.devRef .tc main_arg9) = m ((c.tc : Thread nD τ).loc main_arg9) := by
    rw [← hV2]
    walk_results
    exact h9
  have a10 : V2 (Proc.devRef .tc main_arg10) = m ((c.tc : Thread nD τ).loc main_arg10) := by
    rw [← hV2]
    walk_results
    exact h10
  have a11 : V2 (Proc.devRef .tc main_arg11) = m ((c.tc : Thread nD τ).loc main_arg11) := by
    rw [← hV2]
    walk_results
    exact h11
  have a12 : V2 (Proc.devRef .tc main_arg12) = m ((c.tc : Thread nD τ).loc main_arg12) := by
    rw [← hV2]
    walk_results
    exact h12
  have a13 : V2 (Proc.devRef .tc main_arg13) = m ((c.tc : Thread nD τ).loc main_arg13) := by
    rw [← hV2]
    walk_results
    exact h13
  clear hV2 h110 h6 h7 h8 h9 h10 h11 h12 h13
  generalize hV3 : after _ V2 = V3
  have b117 : V3 (Proc.devRef .tc main_v117) = val_main_v117 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
    rw [← hV3]
    walk_results
    rw [a114, a8, a9]
    try simp only [cast_eq]
    unfold val_main_v117 val_main_v116 val_main_v115
    rfl
  have b110 : V3 (Proc.devRef .tc main_v110) = val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
    rw [← hV3]
    walk_results
    exact a110
  have b10 : V3 (Proc.devRef .tc main_arg10) = m ((c.tc : Thread nD τ).loc main_arg10) := by
    rw [← hV3]
    walk_results
    exact a10
  have b11 : V3 (Proc.devRef .tc main_arg11) = m ((c.tc : Thread nD τ).loc main_arg11) := by
    rw [← hV3]
    walk_results
    exact a11
  have b12 : V3 (Proc.devRef .tc main_arg12) = m ((c.tc : Thread nD τ).loc main_arg12) := by
    rw [← hV3]
    walk_results
    exact a12
  have b13 : V3 (Proc.devRef .tc main_arg13) = m ((c.tc : Thread nD τ).loc main_arg13) := by
    rw [← hV3]
    walk_results
    exact a13
  clear hV3 a114 a110 a8 a9 a10 a11 a12 a13
  generalize hV4 : after _ V3 = V4
  have c118 : V4 (Proc.devRef .tc main_v118) = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
    rw [← hV4]
    walk_results
    rw [b117]
    try simp only [cast_eq]
    unfold val_main_v118 val_main_call3_v10 val_main_call3_v9 val_main_call3_v8 val_main_call3_v7 val_main_call3_cst_1 val_main_call3_v6 val_main_call3_v5 val_main_call3_v4 val_main_call3_v3 val_main_call3_v2 val_main_call3_v1 val_main_call3_cst_0 val_main_call3_v0 val_main_call3_cst
    rfl
  have c110 : V4 (Proc.devRef .tc main_v110) = val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
    rw [← hV4]
    walk_results
    exact b110
  have c10 : V4 (Proc.devRef .tc main_arg10) = m ((c.tc : Thread nD τ).loc main_arg10) := by
    rw [← hV4]
    walk_results
    exact b10
  have c11 : V4 (Proc.devRef .tc main_arg11) = m ((c.tc : Thread nD τ).loc main_arg11) := by
    rw [← hV4]
    walk_results
    exact b11
  have c12 : V4 (Proc.devRef .tc main_arg12) = m ((c.tc : Thread nD τ).loc main_arg12) := by
    rw [← hV4]
    walk_results
    exact b12
  have c13 : V4 (Proc.devRef .tc main_arg13) = m ((c.tc : Thread nD τ).loc main_arg13) := by
    rw [← hV4]
    walk_results
    exact b13
  clear hV4 b117 b110 b10 b11 b12 b13
  walk_results
  rw [c110, c10, c11, c12, c13]
  try simp only [cast_eq]
  unfold val_main_v126 val_main_v125 val_main_v124 val_main_v123 val_main_v122 val_main_call4_v0 val_main_call4_cst val_main_v121 val_main_v120 val_main_v119
  rfl

/-- On every device, from any memory with zero counters: every weakly fair execution of the reference terminates
    with its two results at their stages' values of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v118) = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v126) = val_main_v126 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v118).trans (res_logp m c), (h c main_v126).trans (res_value m c),
      (h c main_arg0).trans (keep0 m c),
      (h c main_arg1).trans (keep1 m c),
      (h c main_arg2).trans (keep2 m c),
      (h c main_arg3).trans (keep3 m c),
      (h c main_arg4).trans (keep4 m c),
      (h c main_arg5).trans (keep5 m c),
      (h c main_arg6).trans (keep6 m c),
      (h c main_arg7).trans (keep7 m c),
      (h c main_arg8).trans (keep8 m c),
      (h c main_arg9).trans (keep9 m c),
      (h c main_arg10).trans (keep10 m c),
      (h c main_arg11).trans (keep11 m c),
      (h c main_arg12).trans (keep12 m c),
      (h c main_arg13).trans (keep13 m c)⟩)
    (run_seq scopedRefs_eq scopedSems_eq defs main (fun _ => ops) main_eq (fun _ => ops_sub) m ρ)

end Cert.ReferenceIdeal.RefRun

end
-- ==== Proof.HeadOne.lean ====
/-
  The first kernel: a 1 × 160000 row vector times two 160000 × 64 matrices, accumulated over fifty grid points.
  Point `t` sees columns 3200·t … 3200·t + 3199 of the row and the matching 3200 rows of each matrix; the two 1 × 64
  outputs keep the same block at every point, are zeroed at point 0, gain one block product per point, and are written
  back once, after point 49.

  * What one visit leaves: at point 0 the zero row plus the block product, at a later point the running row plus the
    block product (the two control cases of the body).
  * The running contents after point `n`: by induction on the point.
  * The one write-back covers the whole 1 × 64 array, so the array ends at the running contents after point 49.
-/
import proofs.«180378_g18657337934107_cont_8to1_35_7_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Tactic
open Idealize.ShloMosaic.Pipeline (Dat)
namespace Cert.KernelIdeal.Head

open Cert.KernelIdeal Cert.KernelIdeal.Gen

variable {F : FTy → Type} [FloatOps F]

theorem hz2 : (![0, 0] : Fin 2 → Nat) = fun _ => 0 := funext fun a => by fin_cases a <;> rfl

/-! ## What one visit of the body leaves in the two outputs -/

/-- A later point: output 3's buffer, holding `xo3`, ends at `xo3` plus the product of the row block `x0` with the
    first matrix's block `x1`. -/
theorem out_B_3 (c : Dev nD) (i : grid0.Coords) (a1 : Memref sig .tc .vmem S1x3200 .f32) (h1 : a1.IsWhole)
    (a2 : Memref sig .tc .vmem S3200x64 .f32) (h2 : a2.IsWhole) (a3 : Memref sig .tc .vmem S3200x64 .f32) (h3 : a3.IsWhole)
    (a4 : Memref sig .tc .vmem S1x64 .f32) (h4 : a4.IsWhole) (a5 : Memref sig .tc .vmem S1x64 .f32) (h5 : a5.IsWhole)
    (hc : ¬cond0_0 i) (x0 : Vec F S1x3200 .f32) (x1 x2 : Vec F S3200x64 .f32) (xo3 xo4 : Vec F S1x64 .f32) :
    out0_B_3 c i a1 h1 a2 h2 a3 h3 a4 h4 a5 h5 hc x0 x1 x2 xo3 xo4 = k0_pay4 x0 xo3 x1 := by
  unfold out0_B_3
  rw [View.read_writes_eq_canon _ _ _ (cover0_B_3 c i a1 h1 a2 h2 a3 h3 a4 h4 a5 h5 hc x0 x1 x2 xo3 xo4)]
  unfold kernelRun0_B
  dsimp only
  rw [View.canon_unit_zero hz2]
  simp only [View.readAt_eq_ld, h1.read_unread, h2.read_unread, h3.read_unread, h4.read_unread, h5.read_unread,
    View.ld_unit_zero (S := S1x3200) hz2, View.ld_unit_zero (S := S3200x64) hz2, View.ld_unit_zero (S := S1x64) hz2]

/-- A later point: output 4's buffer, holding `xo4`, ends at `xo4` plus the product of `x0` with the second
    matrix's block `x2`. -/
theorem out_B_4 (c : Dev nD) (i : grid0.Coords) (a1 : Memref sig .tc .vmem S1x3200 .f32) (h1 : a1.IsWhole)
    (a2 : Memref sig .tc .vmem S3200x64 .f32) (h2 : a2.IsWhole) (a3 : Memref sig .tc .vmem S3200x64 .f32) (h3 : a3.IsWhole)
    (a4 : Memref sig .tc .vmem S1x64 .f32) (h4 : a4.IsWhole) (a5 : Memref sig .tc .vmem S1x64 .f32) (h5 : a5.IsWhole)
    (hc : ¬cond0_0 i) (x0 : Vec F S1x3200 .f32) (x1 x2 : Vec F S3200x64 .f32) (xo3 xo4 : Vec F S1x64 .f32) :
    out0_B_4 c i a1 h1 a2 h2 a3 h3 a4 h4 a5 h5 hc x0 x1 x2 xo3 xo4 = k0_pay5 x0 xo4 x2 := by
  unfold out0_B_4
  rw [View.read_writes_eq_canon _ _ _ (cover0_B_4 c i a1 h1 a2 h2 a3 h3 a4 h4 a5 h5 hc x0 x1 x2 xo3 xo4)]
  unfold kernelRun0_B
  dsimp only
  rw [View.canon_unit_zero hz2]
  simp only [View.readAt_eq_ld, h1.read_unread, h2.read_unread, h3.read_unread, h4.read_unread, h5.read_unread,
    View.ld_unit_zero (S := S1x3200) hz2, View.ld_unit_zero (S := S3200x64) hz2, View.ld_unit_zero (S := S1x64) hz2]

/-- Point 0: the body stores the zero row, reads it back, and leaves the zero row plus the block product. -/
theorem out_A_3 (c : Dev nD) (i : grid0.Coords) (a1 : Memref sig .tc .vmem S1x3200 .f32) (h1 : a1.IsWhole)
    (a2 : Memref sig .tc .vmem S3200x64 .f32) (h2 : a2.IsWhole) (a3 : Memref sig .tc .vmem S3200x64 .f32) (h3 : a3.IsWhole)
    (a4 : Memref sig .tc .vmem S1x64 .f32) (h4 : a4.IsWhole) (a5 : Memref sig .tc .vmem S1x64 .f32) (h5 : a5.IsWhole)
    (hc : cond0_0 i) (x0 : Vec F S1x3200 .f32) (x1 x2 : Vec F S3200x64 .f32) :
    out0_A_3 c i a1 h1 a2 h2 a3 h3 a4 h4 a5 h5 hc x0 x1 x2 = k0_pay4 x0 k0_pay1 x1 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x64) hz2, View.readCov_unit_zero (S := S1x64) _ hz2]
  simp only [View.readAt_eq_ld, h1.read_unread, h2.read_unread, h3.read_unread, h4.read_unread, h5.read_unread,
    View.ld_unit_zero (S := S1x3200) hz2, View.ld_unit_zero (S := S3200x64) hz2, View.ld_unit_zero (S := S1x64) hz2]

/-- Point 0, the second output. -/
theorem out_A_4 (c : Dev nD) (i : grid0.Coords) (a1 : Memref sig .tc .vmem S1x3200 .f32) (h1 : a1.IsWhole)
    (a2 : Memref sig .tc .vmem S3200x64 .f32) (h2 : a2.IsWhole) (a3 : Memref sig .tc .vmem S3200x64 .f32) (h3 : a3.IsWhole)
    (a4 : Memref sig .tc .vmem S1x64 .f32) (h4 : a4.IsWhole) (a5 : Memref sig .tc .vmem S1x64 .f32) (h5 : a5.IsWhole)
    (hc : cond0_0 i) (x0 : Vec F S1x3200 .f32) (x1 x2 : Vec F S3200x64 .f32) :
    out0_A_4 c i a1 h1 a2 h2 a3 h3 a4 h4 a5 h5 hc x0 x1 x2 = k0_pay5 x0 k0_pay2 x2 := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x64) hz2, View.readCov_unit_zero (S := S1x64) _ hz2]
  simp only [View.readAt_eq_ld, h1.read_unread, h2.read_unread, h3.read_unread, h4.read_unread, h5.read_unread,
    View.ld_unit_zero (S := S1x3200) hz2, View.ld_unit_zero (S := S3200x64) hz2, View.ld_unit_zero (S := S1x64) hz2]

/-! ## The running contents after each point -/

section Running

variable (V : (c : Dev nD) → (b : Ref sig .tc) → Buf (Elt F) ((c : Thread nD τ).loc b))

/-- The first output after point `n`: the zero row plus block 0's product, then one more block product per point. -/
def accA (c : Dev nD) : (n : ℕ) → n < cfg0.N → Vec F S1x64 .f32
  | 0, h => k0_pay4 (iblk0 V c 0 ⟨0, h⟩) k0_pay1 (iblk0 V c 1 ⟨0, h⟩)
  | n + 1, h => k0_pay4 (iblk0 V c 0 ⟨n + 1, h⟩) (accA c n (Nat.lt_of_succ_lt h)) (iblk0 V c 1 ⟨n + 1, h⟩)

/-- The second output after point `n`, against the second matrix. -/
def accV (c : Dev nD) : (n : ℕ) → n < cfg0.N → Vec F S1x64 .f32
  | 0, h => k0_pay5 (iblk0 V c 0 ⟨0, h⟩) k0_pay2 (iblk0 V c 2 ⟨0, h⟩)
  | n + 1, h => k0_pay5 (iblk0 V c 0 ⟨n + 1, h⟩) (accV c n (Nat.lt_of_succ_lt h)) (iblk0 V c 2 ⟨n + 1, h⟩)

/-- What the two staging buffers hold after point `n` is the pair of running contents: by induction on the point. -/
theorem outsAt_eq (c : Dev nD) : ∀ (n : ℕ) (h : n < cfg0.N), outsAt0 V c n h = (accA V c n h, accV V c n h)
  | 0, h => by
    rw [outsAt0_A V c ⟨0, h⟩ rfl, out_A_3, out_A_4]
    rfl
  | n + 1, h => by
    have hN : cfg0.N = 50 := N_0
    have hB : ¬(⟨n + 1, h⟩ : Fin cfg0.N).val % 50 = 0 := by dsimp only; omega
    rw [outsAt0_B V c ⟨n + 1, h⟩ hB, out_B_3, out_B_4]
    show (k0_pay4 _ (outsAt0 V c n _).1 _, k0_pay5 _ (outsAt0 V c n _).2 _) = _
    rw [outsAt_eq c n]
    rfl

/-! ## The arrays after the one write-back -/

/-- The last grid point. -/
abbrev tLast : Fin cfg0.N := ⟨49, by rw [show cfg0.N = 50 from N_0]; decide⟩

theorem lastLt : 49 < cfg0.N := by rw [show cfg0.N = 50 from N_0]; decide

/-- The first 1 × 64 result of the kernel, as contents of its array. -/
abbrev resultA (c : Dev nD) : Buf (Elt F) ((c : Thread nD τ).loc main_v111_0) := accA V c 49 lastLt
/-- The second. -/
abbrev resultV (c : Dev nD) : Buf (Elt F) ((c : Thread nD τ).loc main_v111_1) := accV V c 49 lastLt

theorem flushed_eq_3 (c : Dev nD) (t : Fin cfg0.N) (hf : (cfg0.win 3).flush t = true) :
    (dat0 V c).flushed 3 t = ((cfg0.win 3).blk t).view.read (Elt F) (resultA V c) := by
  have hN : cfg0.N = 50 := N_0
  have h49 : t.val = 49 := by have := (flush0_3 t).mp hf; have := t.isLt; omega
  obtain rfl : t = tLast := Fin.ext h49
  show (cfg0.win 3).cut (grid0.coords tLast) ((dat0 V c).after 3 tLast) = _
  rw [after0_3, outsAt_eq]
  have hz' : (fun a => win0_3.index tLast a * main_v111_0.ty.shape.size a) = fun _ => 0 := funext fun a => by fin_cases a <;> decide +kernel
  exact (Memref.read_access_unit_zero (Elt F) main_v111_0 hz' (fun a => by rw [congrFun hz' a]; simp) (resultA V c)).symm

theorem flushed_eq_4 (c : Dev nD) (t : Fin cfg0.N) (hf : (cfg0.win 4).flush t = true) :
    (dat0 V c).flushed 4 t = ((cfg0.win 4).blk t).view.read (Elt F) (resultV V c) := by
  have hN : cfg0.N = 50 := N_0
  have h49 : t.val = 49 := by have := (flush0_4 t).mp hf; have := t.isLt; omega
  obtain rfl : t = tLast := Fin.ext h49
  show (cfg0.win 4).cut (grid0.coords tLast) ((dat0 V c).after 4 tLast) = _
  rw [after0_4, outsAt_eq]
  have hz' : (fun a => win0_4.index tLast a * main_v111_1.ty.shape.size a) = fun _ => 0 := funext fun a => by fin_cases a <;> decide +kernel
  exact (Memref.read_access_unit_zero (Elt F) main_v111_1 hz' (fun a => by rw [congrFun hz' a]; simp) (resultV V c)).symm

/-- The first result array ends at the running contents after the last point: that point's block is the whole array. -/
theorem final_3 (c : Dev nD) : (dat0 V c).arrAt 3 cfg0.N = resultA V c :=
  (dat0 V c).arrAt_eq_of_cover 3 (resultA V c) (flushed_eq_3 V c) fun i =>
    ⟨tLast, (flush0_3 tLast).mpr rfl, by
      show i ∈ ((View.whole main_v111_0).slice (win0_3.rect tLast)).set
      rw [View.set_slice_whole, Rect.mem_set_unit]
      intro a
      have h0 : (i 0 : Nat) < 1 := (i 0).isLt
      have h1 : (i 1 : Nat) < 64 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 64 from by decide +kernel]; omega⟩

/-- The second likewise. -/
theorem final_4 (c : Dev nD) : (dat0 V c).arrAt 4 cfg0.N = resultV V c :=
  (dat0 V c).arrAt_eq_of_cover 4 (resultV V c) (flushed_eq_4 V c) fun i =>
    ⟨tLast, (flush0_4 tLast).mpr rfl, by
      show i ∈ ((View.whole main_v111_1).slice (win0_4.rect tLast)).set
      rw [View.set_slice_whole, Rect.mem_set_unit]
      intro a
      have h0 : (i 0 : Nat) < 1 := (i 0).isLt
      have h1 : (i 1 : Nat) < 64 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 64 from by decide +kernel]; omega⟩

end Running

end Cert.KernelIdeal.Head

end
-- ==== Proof.HeadTwo.lean ====
/-
  The second kernel (no grid: every operand is staged whole, the body runs once): its two result arrays end at what
  its body computes from the eight operand arrays — the log-probabilities row and the scalar value.
-/
import proofs.«180378_g18657337934107_cont_8to1_35_7_alg».proof.Proof.HeadOne

set_option maxRecDepth 16384

noncomputable section

open Idealize.ShloMosaic Idealize.ShloMosaic.TcCoe Idealize.SL.Sem
open Idealize.ShloMosaic.Tactic
open Idealize.ShloMosaic.Pipeline (Dat)
namespace Cert.KernelIdeal.Head

open Cert.KernelIdeal Cert.KernelIdeal.Gen

variable {F : FTy → Type} [FloatOps F]

/-! ## What the body leaves in its two outputs -/

/-- The 1 × 10000 output: the log-probabilities, one store of the whole block. -/
theorem out1_8_eq (x0 x1 : Vec F S1x64 .f32) (x2 : Vec F S64x10000 .f32) (x3 : Vec F S1x10000 .f32) (x4 x5 : Vec F S1x64 .f32)
    (x6 : Vec F S64x1 .f32) (x7 : Vec F S1x1 .f32) : out1_8 x0 x1 x2 x3 x4 x5 x6 x7 = k1_pay2 x0 x1 x2 x3 := by
  unfold out1_8
  rw [View.canon_unit_zero hz2]
  simp only [View.ld_unit_zero (S := S1x64) hz2, View.ld_unit_zero (S := S64x10000) hz2, View.ld_unit_zero (S := S1x10000) hz2]

/-- The 1 × 1 output: the value, one store. -/
theorem out1_9_eq (x0 x1 : Vec F S1x64 .f32) (x2 : Vec F S64x10000 .f32) (x3 : Vec F S1x10000 .f32) (x4 x5 : Vec F S1x64 .f32)
    (x6 : Vec F S64x1 .f32) (x7 : Vec F S1x1 .f32) : out1_9 x0 x1 x2 x3 x4 x5 x6 x7 = k1_pay1 (k1_pay3 x4 x5) x6 x7 := by
  unfold out1_9
  rw [View.canon_unit_zero hz2]
  simp only [View.ld_unit_zero (S := S1x64) hz2, View.ld_unit_zero (S := S64x1) hz2, View.ld_unit_zero (S := S1x1) hz2]

section Arrays

variable (V : (c : Dev nD) → (b : Ref sig .tc) → Buf (Elt F) ((c : Thread nD τ).loc b))

/-! ## No grid: every window's one block is its whole array -/

theorem iblk1_0 (c : Dev nD) (t : Fin cfg1.N) : iblk1 V c 0 t = V c main_v111_0 := by
  unfold iblk1
  have hz' : (fun a => win1_0.index t a * main_v111_0.ty.shape.size a) = fun _ => 0 := by
    obtain rfl := fin_N1 t
    exact funext fun a => by fin_cases a <;> decide +kernel
  exact Memref.read_access_unit_zero (Elt F) main_v111_0 hz' (fun a => by rw [congrFun hz' a]; simp) (V c main_v111_0)
theorem iblk1_1 (c : Dev nD) (t : Fin cfg1.N) : iblk1 V c 1 t = V c main_v112 := by
  unfold iblk1
  have hz' : (fun a => win1_1.index t a * main_v112.ty.shape.size a) = fun _ => 0 := by
    obtain rfl := fin_N1 t
    exact funext fun a => by fin_cases a <;> decide +kernel
  exact Memref.read_access_unit_zero (Elt F) main_v112 hz' (fun a => by rw [congrFun hz' a]; simp) (V c main_v112)
theorem iblk1_2 (c : Dev nD) (t : Fin cfg1.N) : iblk1 V c 2 t = V c main_arg8 := by
  unfold iblk1
  have hz' : (fun a => win1_2.index t a * main_arg8.ty.shape.size a) = fun _ => 0 := by
    obtain rfl := fin_N1 t
    exact funext fun a => by fin_cases a <;> decide +kernel
  exact Memref.read_access_unit_zero (Elt F) main_arg8 hz' (fun a => by rw [congrFun hz' a]; simp) (V c main_arg8)
theorem iblk1_3 (c : Dev nD) (t : Fin cfg1.N) : iblk1 V c 3 t = V c main_v113 := by
  unfold iblk1
  have hz' : (fun a => win1_3.index t a * main_v113.ty.shape.size a) = fun _ => 0 := by
    obtain rfl := fin_N1 t
    exact funext fun a => by fin_cases a <;> decide +kernel
  exact Memref.read_access_unit_zero (Elt F) main_v113 hz' (fun a => by rw [congrFun hz' a]; simp) (V c main_v113)
theorem iblk1_4 (c : Dev nD) (t : Fin cfg1.N) : iblk1 V c 4 t = V c main_v111_1 := by
  unfold iblk1
  have hz' : (fun a => win1_4.index t a * main_v111_1.ty.shape.size a) = fun _ => 0 := by
    obtain rfl := fin_N1 t
    exact funext fun a => by fin_cases a <;> decide +kernel
  exact Memref.read_access_unit_zero (Elt F) main_v111_1 hz' (fun a => by rw [congrFun hz' a]; simp) (V c main_v111_1)
theorem iblk1_5 (c : Dev nD) (t : Fin cfg1.N) : iblk1 V c 5 t = V c main_v114 := by
  unfold iblk1
  have hz' : (fun a => win1_5.index t a * main_v114.ty.shape.size a) = fun _ => 0 := by
    obtain rfl := fin_N1 t
    exact funext fun a => by fin_cases a <;> decide +kernel
  exact Memref.read_access_unit_zero (Elt F) main_v114 hz' (fun a => by rw [congrFun hz' a]; simp) (V c main_v114)
theorem iblk1_6 (c : Dev nD) (t : Fin cfg1.N) : iblk1 V c 6 t = V c main_arg12 := by
  unfold iblk1
  have hz' : (fun a => win1_6.index t a * main_arg12.ty.shape.size a) = fun _ => 0 := by
    obtain rfl := fin_N1 t
    exact funext fun a => by fin_cases a <;> decide +kernel
  exact Memref.read_access_unit_zero (Elt F) main_arg12 hz' (fun a => by rw [congrFun hz' a]; simp) (V c main_arg12)
theorem iblk1_7 (c : Dev nD) (t : Fin cfg1.N) : iblk1 V c 7 t = V c main_v115 := by
  unfold iblk1
  have hz' : (fun a => win1_7.index t a * main_v115.ty.shape.size a) = fun _ => 0 := by
    obtain rfl := fin_N1 t
    exact funext fun a => by fin_cases a <;> decide +kernel
  exact Memref.read_access_unit_zero (Elt F) main_v115 hz' (fun a => by rw [congrFun hz' a]; simp) (V c main_v115)

/-- The log-probabilities as contents of the first result array. -/
abbrev logProbs (c : Dev nD) : Buf (Elt F) ((c : Thread nD τ).loc main_v116_0) :=
  k1_pay2 (V c main_v111_0) (V c main_v112) (V c main_arg8) (V c main_v113)
/-- The value as contents of the second result array. -/
abbrev value (c : Dev nD) : Buf (Elt F) ((c : Thread nD τ).loc main_v116_1) :=
  k1_pay1 (k1_pay3 (V c main_v111_1) (V c main_v114)) (V c main_arg12) (V c main_v115)

theorem flushed_eq_8 (c : Dev nD) (t : Fin cfg1.N) (hf : (cfg1.win 8).flush t = true) :
    (dat1 V c).flushed 8 t = ((cfg1.win 8).blk t).view.read (Elt F) (logProbs V c) := by
  obtain rfl := fin_N1 t
  show (cfg1.win 8).cut (grid1.coords t1_0) ((dat1 V c).after 8 t1_0) = _
  rw [after1_8, out1_8_eq, iblk1_0, iblk1_1, iblk1_2, iblk1_3]
  have hz' : (fun a => win1_8.index t1_0 a * main_v116_0.ty.shape.size a) = fun _ => 0 := funext fun a => by fin_cases a <;> decide +kernel
  exact (Memref.read_access_unit_zero (Elt F) main_v116_0 hz' (fun a => by rw [congrFun hz' a]; simp) (logProbs V c)).symm

theorem flushed_eq_9 (c : Dev nD) (t : Fin cfg1.N) (hf : (cfg1.win 9).flush t = true) :
    (dat1 V c).flushed 9 t = ((cfg1.win 9).blk t).view.read (Elt F) (value V c) := by
  obtain rfl := fin_N1 t
  show (cfg1.win 9).cut (grid1.coords t1_0) ((dat1 V c).after 9 t1_0) = _
  rw [after1_9, out1_9_eq, iblk1_4, iblk1_5, iblk1_6, iblk1_7]
  have hz' : (fun a => win1_9.index t1_0 a * main_v116_1.ty.shape.size a) = fun _ => 0 := funext fun a => by fin_cases a <;> decide +kernel
  exact (Memref.read_access_unit_zero (Elt F) main_v116_1 hz' (fun a => by rw [congrFun hz' a]; simp) (value V c)).symm

/-- The first result array ends at the log-probabilities. -/
theorem final_8 (c : Dev nD) : (dat1 V c).arrAt 8 cfg1.N = logProbs V c :=
  (dat1 V c).arrAt_eq_of_cover 8 (logProbs V c) (flushed_eq_8 V c) fun i =>
    ⟨t1_0, flush1_8 t1_0, by
      show i ∈ ((View.whole main_v116_0).slice (win1_8.rect t1_0)).set
      rw [View.set_slice_whole, Rect.mem_set_unit]
      intro a
      have h0 : (i 0 : Nat) < 1 := (i 0).isLt
      have h1 : (i 1 : Nat) < 10000 := (i 1).isLt
      match a with
      | ⟨0, _⟩ => show win1_8.index t1_0 0 * win1_8.size 0 ≤ (i 0 : Nat) ∧ (i 0 : Nat) < win1_8.index t1_0 0 * win1_8.size 0 + win1_8.xsize (grid1.coords t1_0) 0
                  rw [show win1_8.index t1_0 0 * win1_8.size 0 = 0 from by decide +kernel, show win1_8.xsize (grid1.coords t1_0) 0 = 1 from by decide +kernel]; omega
      | ⟨1, _⟩ => show win1_8.index t1_0 1 * win1_8.size 1 ≤ (i 1 : Nat) ∧ (i 1 : Nat) < win1_8.index t1_0 1 * win1_8.size 1 + win1_8.xsize (grid1.coords t1_0) 1
                  rw [show win1_8.index t1_0 1 * win1_8.size 1 = 0 from by decide +kernel, show win1_8.xsize (grid1.coords t1_0) 1 = 10000 from by decide +kernel]; omega⟩

/-- The second result array ends at the value. -/
theorem final_9 (c : Dev nD) : (dat1 V c).arrAt 9 cfg1.N = value V c :=
  (dat1 V c).arrAt_eq_of_cover 9 (value V c) (flushed_eq_9 V c) fun i =>
    ⟨t1_0, flush1_9 t1_0, by
      show i ∈ ((View.whole main_v116_1).slice (win1_9.rect t1_0)).set
      rw [View.set_slice_whole, Rect.mem_set_unit]
      intro a
      have h0 : (i 0 : Nat) < 1 := (i 0).isLt
      have h1 : (i 1 : Nat) < 1 := (i 1).isLt
      match a with
      | ⟨0, _⟩ => show win1_9.index t1_0 0 * win1_9.size 0 ≤ (i 0 : Nat) ∧ (i 0 : Nat) < win1_9.index t1_0 0 * win1_9.size 0 + win1_9.xsize (grid1.coords t1_0) 0
                  rw [show win1_9.index t1_0 0 * win1_9.size 0 = 0 from by decide +kernel, show win1_9.xsize (grid1.coords t1_0) 0 = 1 from by decide +kernel]; omega
      | ⟨1, _⟩ => show win1_9.index t1_0 1 * win1_9.size 1 ≤ (i 1 : Nat) ∧ (i 1 : Nat) < win1_9.index t1_0 1 * win1_9.size 1 + win1_9.xsize (grid1.coords t1_0) 1
                  rw [show win1_9.index t1_0 1 * win1_9.size 1 = 0 from by decide +kernel, show win1_9.xsize (grid1.coords t1_0) 1 = 1 from by decide +kernel]; omega⟩

end Arrays

end Cert.KernelIdeal.Head

end
-- ==== Proof.KernelValue.lean ====
/-
  The idealized kernel's two results as functions of the launch contents: the second kernel's body applied to the
  first kernel's two accumulated rows, the four reshaped bias vectors and the two weight matrices, every argument
  array read back to what the program was launched with. The one operand left as the program computes it is the
  flattened feature row (the graph-convolution layers before the first kernel).
-/
import proofs.«180378_g18657337934107_cont_8to1_35_7_alg».proof.Proof.HeadOne
import proofs.«180378_g18657337934107_cont_8to1_35_7_alg».proof.Proof.HeadTwo
import Idealize.ShloMosaic.Lib.StableHlo.Run

set_option maxRecDepth 16384

noncomputable section

open Idealize.ShloMosaic Idealize.ShloMosaic.TcCoe Idealize.SL.Sem
open Idealize.ShloMosaic.Tactic
open Idealize.ShloMosaic.Pipeline (Dat)
namespace Cert.KernelIdeal.Head

open Cert.KernelIdeal Cert.KernelIdeal.Gen Idealize.ShloMosaic.StableHlo

variable {F : FTy → Type} [FloatOps F]
variable (m : (ℓ : Loc nD τ sig) → Buf (Elt F) ℓ) (ρ : Dev nD → PrngReg)

/-! ## The four reshapes between the kernels touch nothing else -/

/-- A buffer the four reshapes do not write holds, at the second kernel's entry, what the first kernel's exit left. -/
theorem W7_keep_arg6 (c : Dev nD) : W7 m ρ c (Proc.devRef .tc main_arg6) = W6 m ρ c (Proc.devRef .tc main_arg6) := by
  show StableHlo.after hostOps1 (W6 m ρ c) _ = _
  simp only [hostOps1]; after_results
theorem W7_keep_arg10 (c : Dev nD) : W7 m ρ c (Proc.devRef .tc main_arg10) = W6 m ρ c (Proc.devRef .tc main_arg10) := by
  show StableHlo.after hostOps1 (W6 m ρ c) _ = _
  simp only [hostOps1]; after_results
theorem W7_keep_arg7 (c : Dev nD) : W7 m ρ c (Proc.devRef .tc main_arg7) = W6 m ρ c (Proc.devRef .tc main_arg7) := by
  show StableHlo.after hostOps1 (W6 m ρ c) _ = _
  simp only [hostOps1]; after_results
theorem W7_keep_arg9 (c : Dev nD) : W7 m ρ c (Proc.devRef .tc main_arg9) = W6 m ρ c (Proc.devRef .tc main_arg9) := by
  show StableHlo.after hostOps1 (W6 m ρ c) _ = _
  simp only [hostOps1]; after_results
theorem W7_keep_arg11 (c : Dev nD) : W7 m ρ c (Proc.devRef .tc main_arg11) = W6 m ρ c (Proc.devRef .tc main_arg11) := by
  show StableHlo.after hostOps1 (W6 m ρ c) _ = _
  simp only [hostOps1]; after_results
theorem W7_keep_arg13 (c : Dev nD) : W7 m ρ c (Proc.devRef .tc main_arg13) = W6 m ρ c (Proc.devRef .tc main_arg13) := by
  show StableHlo.after hostOps1 (W6 m ρ c) _ = _
  simp only [hostOps1]; after_results
theorem W7_keep_out3 (c : Dev nD) : W7 m ρ c (Proc.devRef .tc main_v111_0) = W6 m ρ c (Proc.devRef .tc main_v111_0) := by
  show StableHlo.after hostOps1 (W6 m ρ c) _ = _
  simp only [hostOps1]; after_results
theorem W7_keep_out4 (c : Dev nD) : W7 m ρ c (Proc.devRef .tc main_v111_1) = W6 m ρ c (Proc.devRef .tc main_v111_1) := by
  show StableHlo.after hostOps1 (W6 m ρ c) _ = _
  simp only [hostOps1]; after_results

/-! ## The argument arrays, as each kernel finds them, are the launch contents -/

theorem W6_arg7 (c : Dev nD) : W6 m ρ c (Proc.devRef .tc main_arg7) = m ((c : Thread nD τ).loc main_arg7) :=
  (W7_keep_arg7 m ρ c).symm.trans ((W8_of_ne m ρ c main_arg7 (by decide)).symm.trans (W8_main_arg7 m ρ c))
theorem W6_arg9 (c : Dev nD) : W6 m ρ c (Proc.devRef .tc main_arg9) = m ((c : Thread nD τ).loc main_arg9) :=
  (W7_keep_arg9 m ρ c).symm.trans ((W8_of_ne m ρ c main_arg9 (by decide)).symm.trans (W8_main_arg9 m ρ c))
theorem W6_arg11 (c : Dev nD) : W6 m ρ c (Proc.devRef .tc main_arg11) = m ((c : Thread nD τ).loc main_arg11) :=
  (W7_keep_arg11 m ρ c).symm.trans ((W8_of_ne m ρ c main_arg11 (by decide)).symm.trans (W8_main_arg11 m ρ c))
theorem W6_arg13 (c : Dev nD) : W6 m ρ c (Proc.devRef .tc main_arg13) = m ((c : Thread nD τ).loc main_arg13) :=
  (W7_keep_arg13 m ρ c).symm.trans ((W8_of_ne m ρ c main_arg13 (by decide)).symm.trans (W8_main_arg13 m ρ c))

/-- The first matrix as the first kernel finds it. -/
theorem V5_arg6 (c : Dev nD) : V5 m ρ c main_arg6 = m ((c : Thread nD τ).loc main_arg6) := by
  have h56 : W6 m ρ c (Proc.devRef .tc main_arg6) = V5 m ρ c main_arg6 :=
    (W6_arr m ρ c 1).trans (((dat0 (V5 m ρ) c).arrAt_in 1 rfl _).trans (A_eq0 (V5 m ρ) c 1))
  exact h56.symm.trans ((W7_keep_arg6 m ρ c).symm.trans ((W8_of_ne m ρ c main_arg6 (by decide)).symm.trans (W8_main_arg6 m ρ c)))
/-- The second matrix as the first kernel finds it. -/
theorem V5_arg10 (c : Dev nD) : V5 m ρ c main_arg10 = m ((c : Thread nD τ).loc main_arg10) := by
  have h56 : W6 m ρ c (Proc.devRef .tc main_arg10) = V5 m ρ c main_arg10 :=
    (W6_arr m ρ c 2).trans (((dat0 (V5 m ρ) c).arrAt_in 2 rfl _).trans (A_eq0 (V5 m ρ) c 2))
  exact h56.symm.trans ((W7_keep_arg10 m ρ c).symm.trans ((W8_of_ne m ρ c main_arg10 (by decide)).symm.trans (W8_main_arg10 m ρ c)))

/-- The 64 × 10000 matrix as the second kernel finds it. -/
theorem V7_arg8 (c : Dev nD) : V7 m ρ c main_arg8 = m ((c : Thread nD τ).loc main_arg8) :=
  ((W8_arr m ρ c 2).trans (((dat1 (V7 m ρ) c).arrAt_in 2 rfl _).trans (A_eq1 (V7 m ρ) c 2))).symm.trans (W8_main_arg8 m ρ c)
/-- The 64 × 1 column as the second kernel finds it. -/
theorem V7_arg12 (c : Dev nD) : V7 m ρ c main_arg12 = m ((c : Thread nD τ).loc main_arg12) :=
  ((W8_arr m ρ c 6).trans (((dat1 (V7 m ρ) c).arrAt_in 6 rfl _).trans (A_eq1 (V7 m ρ) c 6))).symm.trans (W8_main_arg12 m ρ c)

/-! ## The second kernel's other operands -/

theorem V7_apre (c : Dev nD) : V7 m ρ c main_v111_0 = resultA (V5 m ρ) c :=
  (W7_keep_out3 m ρ c).trans ((W6_arr m ρ c 3).trans (final_3 (V5 m ρ) c))
theorem V7_vpre (c : Dev nD) : V7 m ρ c main_v111_1 = resultV (V5 m ρ) c :=
  (W7_keep_out4 m ρ c).trans ((W6_arr m ρ c 4).trans (final_4 (V5 m ρ) c))

theorem V7_ba1 (c : Dev nD) : V7 m ρ c main_v112 = shapeCast S1x64 (m ((c : Thread nD τ).loc main_arg7)) shapeCasts_S64_S1x64 := by
  show StableHlo.after hostOps1 (W6 m ρ c) (Proc.devRef .tc main_v112) = _
  simp only [hostOps1]; after_results
  rw [W6_arg7]
  rfl
theorem V7_ba2 (c : Dev nD) : V7 m ρ c main_v113 = shapeCast S1x10000 (m ((c : Thread nD τ).loc main_arg9)) shapeCasts_S10000_S1x10000 := by
  show StableHlo.after hostOps1 (W6 m ρ c) (Proc.devRef .tc main_v113) = _
  simp only [hostOps1]; after_results
  rw [W6_arg9]
  rfl
theorem V7_bv1 (c : Dev nD) : V7 m ρ c main_v114 = shapeCast S1x64 (m ((c : Thread nD τ).loc main_arg11)) shapeCasts_S64_S1x64 := by
  show StableHlo.after hostOps1 (W6 m ρ c) (Proc.devRef .tc main_v114) = _
  simp only [hostOps1]; after_results
  rw [W6_arg11]
  rfl
theorem V7_bv2 (c : Dev nD) : V7 m ρ c main_v115 = shapeCast S1x1 (m ((c : Thread nD τ).loc main_arg13)) shapeCasts_S1_S1x1 := by
  show StableHlo.after hostOps1 (W6 m ρ c) (Proc.devRef .tc main_v115) = _
  simp only [hostOps1]; after_results
  rw [W6_arg13]
  rfl

/-! ## The two results of the program -/

/-- The first result: the second kernel's log-probabilities of the first kernel's first output, the reshaped biases
    and the 64 × 10000 matrix. -/
theorem result0_eq (c : Dev nD) : W8 m ρ c (Proc.devRef .tc main_v116_0)
    = k1_pay2 (resultA (V5 m ρ) c) (shapeCast S1x64 (m ((c : Thread nD τ).loc main_arg7)) shapeCasts_S64_S1x64)
        (m ((c : Thread nD τ).loc main_arg8)) (shapeCast S1x10000 (m ((c : Thread nD τ).loc main_arg9)) shapeCasts_S10000_S1x10000) := by
  refine (W8_arr m ρ c 8).trans ((final_8 (V7 m ρ) c).trans ?_)
  show k1_pay2 (V7 m ρ c main_v111_0) (V7 m ρ c main_v112) (V7 m ρ c main_arg8) (V7 m ρ c main_v113) = _
  rw [V7_apre, V7_ba1, V7_arg8, V7_ba2]

/-- The second result: the value head over the first kernel's second output. -/
theorem result1_eq (c : Dev nD) : W8 m ρ c (Proc.devRef .tc main_v116_1)
    = k1_pay1 (k1_pay3 (resultV (V5 m ρ) c) (shapeCast S1x64 (m ((c : Thread nD τ).loc main_arg11)) shapeCasts_S64_S1x64))
        (m ((c : Thread nD τ).loc main_arg12)) (shapeCast S1x1 (m ((c : Thread nD τ).loc main_arg13)) shapeCasts_S1_S1x1) := by
  refine (W8_arr m ρ c 9).trans ((final_9 (V7 m ρ) c).trans ?_)
  show k1_pay1 (k1_pay3 (V7 m ρ c main_v111_1) (V7 m ρ c main_v114)) (V7 m ρ c main_arg12) (V7 m ρ c main_v115) = _
  rw [V7_vpre, V7_bv1, V7_arg12, V7_bv2]

end Cert.KernelIdeal.Head

end
-- ==== Proof.LibDotSum.lean ====
/-
  A rank-2 by rank-2 contraction with no batch axis and ONE contracted axis on each side, read at an output
  index: the sum over the contracted extent of the products of the two operands, each read at the index whose
  free coordinate is the output's and whose contracted coordinate is the summation variable.  Stated for any
  placement of the free and the contracted axis on either side (so it serves a product with the right operand
  stored row-major or transposed), over the dimension numbers' own index maps.
-/
import Idealize.ShloMosaic.PureOps.Ideal.Laws
import Idealize.ShloMosaic.Lib.ValueIdx

noncomputable section

open scoped BigOperators

namespace Cert.Lib

open Idealize.ShloMosaic Idealize.ShloMosaic.ValueIdx

variable {sl sr so : Shape}

/-- On the one free axis of the left operand (no batch axes), the left index is the output's coordinate 0. -/
theorem lhsIdx_val_free (d : DotDims sl sr so) {al : Fin sl.rank} (hb : d.lhsBatch = []) (hn : d.lhsNonContracting = [al])
    (j : so.Idx) (k : d.contr.Idx) :
    (d.lhsIdx j k al).val = (j ⟨0, by rw [d.rank_out, hb, hn]; simp⟩).val := by
  unfold DotDims.lhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the one free axis of the right operand (no batch axes, one free axis on the left), the right index is the
    output's coordinate 1. -/
theorem rhsIdx_val_free (d : DotDims sl sr so) {al : Fin sl.rank} {ar : Fin sr.rank} (hlb : d.lhsBatch = [])
    (hrb : d.rhsBatch = []) (hln : d.lhsNonContracting = [al]) (hrn : d.rhsNonContracting = [ar])
    (j : so.Idx) (k : d.contr.Idx) :
    (d.rhsIdx j k ar).val = (j ⟨1, by rw [d.rank_out, hlb, hln, hrn]; simp⟩).val := by
  unfold DotDims.rhsIdx
  rw [dif_neg (by rw [hrb]; exact List.not_mem_nil), dif_pos (by rw [hrn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

variable {A B C D M N : Nat}

/-- THE CONTRACTION AS A SUM over the contracted extent: for operands of shapes [A, B] and [C, D] and an output [M, N],
    free axes al / ar and contracted axes cl / cr, the sum over the dimension numbers' contraction index of
    L (lhsIdx j k) * R (rhsIdx j k) is the sum over k < n of L (li k) * R (ri k), for any families of operand
    indices li, ri whose free coordinate is j's and whose contracted coordinate is k. -/
theorem dot2_sum (d : DotDims ⟨2, ![A, B]⟩ ⟨2, ![C, D]⟩ ⟨2, ![M, N]⟩) (al cl ar cr : Fin 2)
    (hlb : d.lhsBatch = []) (hrb : d.rhsBatch = []) (hln : d.lhsNonContracting = [al]) (hrn : d.rhsNonContracting = [ar])
    (hlc : d.lhsContracting = [cl]) (hrc : d.rhsContracting = [cr]) (n : Nat)
    (hr : d.contr.rank = 1) (hs : d.contr.size ⟨0, by omega⟩ = n)
    (L : (⟨2, ![A, B]⟩ : Shape).Idx → EReal) (R : (⟨2, ![C, D]⟩ : Shape).Idx → EReal) (j : (⟨2, ![M, N]⟩ : Shape).Idx)
    (li : Fin n → (⟨2, ![A, B]⟩ : Shape).Idx) (ri : Fin n → (⟨2, ![C, D]⟩ : Shape).Idx)
    (h1 : ∀ k, (li k al).val = (j 0).val) (h2 : ∀ k, (li k cl).val = k.val)
    (h3 : ∀ k, (ri k ar).val = (j 1).val) (h4 : ∀ k, (ri k cr).val = k.val) :
    ∑ k : d.contr.Idx, L (d.lhsIdx j k) * R (d.rhsIdx j k) = ∑ k : Fin n, L (li k) * R (ri k) := by
  rw [← Equiv.sum_comp (contrEquiv1 d n hr hs).symm]
  refine Finset.sum_congr rfl fun k _ => ?_
  have el : d.lhsIdx j ((contrEquiv1 d n hr hs).symm k) = li k := by
    funext a
    apply Fin.ext
    rcases d.mem_lhs a with h | h | h
    · rw [hlb] at h; exact absurd h List.not_mem_nil
    · rw [hln] at h; obtain rfl := List.mem_singleton.mp h
      rw [h1 k]; exact lhsIdx_val_free d hlb hln j _
    · rw [hlc] at h; obtain rfl := List.mem_singleton.mp h
      rw [h2 k, d.lhsIdx_val_of_single hlc j _]; exact contrEquiv1_symm_val d n hr hs k
  have er : d.rhsIdx j ((contrEquiv1 d n hr hs).symm k) = ri k := by
    funext a
    apply Fin.ext
    rcases d.mem_rhs a with h | h | h
    · rw [hrb] at h; exact absurd h List.not_mem_nil
    · rw [hrn] at h; obtain rfl := List.mem_singleton.mp h
      rw [h3 k]; exact rhsIdx_val_free d hlb hrb hln hrn j _
    · rw [hrc] at h; obtain rfl := List.mem_singleton.mp h
      rw [h4 k, d.rhsIdx_val_of_single hrc j _]; exact contrEquiv1_symm_val d n hr hs k
  rw [el, er]

end Cert.Lib

end
-- ==== Proof.SumBlocks.lean ====
/-
  Two facts about finite sums in a commutative monoid (here: the extended reals under addition, where no
  finiteness is needed because only commutativity and associativity are used).

  * A sum over `a * b` consecutive positions is the sum, over `a` consecutive blocks, of the sums inside each block of
    length `b`: position `k + b * t` is entry `k` of block `t`.
  * A running total over the first `n + 1` blocks, taken block by block, is a sum over a range.
-/
import Idealize.ShloMosaic.Lib.ValueIdx

namespace Cert.Head.Sums

open Finset

/-- Blocks of a long sum: `∑ₜ ∑ₖ h (k + b·t) = ∑ₚ h p`. -/
theorem sum_blocks {M : Type*} [AddCommMonoid M] (a b : ℕ) (h : Fin (a * b) → M) :
    ∑ t : Fin a, ∑ k : Fin b, h (finProdFinEquiv (t, k)) = ∑ p : Fin (a * b), h p := by
  rw [← Fintype.sum_prod_type' (f := fun t k => h (finProdFinEquiv (t, k)))]
  exact Fintype.sum_equiv finProdFinEquiv _ _ (fun _ => rfl)

/-- The position `finProdFinEquiv` gives entry `k` of block `t`. -/
theorem finProdFinEquiv_val (a b : ℕ) (t : Fin a) (k : Fin b) : (finProdFinEquiv (t, k)).val = k.val + b * t.val := rfl

/-- A total over all `n` blocks, read off a total over a range of naturals. -/
theorem sum_range_fin {M : Type*} [AddCommMonoid M] (n : ℕ) (G : ℕ → M) : ∑ t ∈ range n, G t = ∑ t : Fin n, G t.val :=
  Finset.sum_range G

end Cert.Head.Sums
-- ==== Proof.HeadOneSum.lean ====
/-
  The first kernel's two results over the extended reals: at output column `j` each is the row vector times column
  `j` of its matrix, all 160000 terms — the fifty block products of 3200 terms that the grid accumulates, put back
  into one sum. Addition of extended reals is commutative and associative, so no finiteness is needed.
-/
import proofs.«180378_g18657337934107_cont_8to1_35_7_alg».proof.Proof.HeadOne
import proofs.«180378_g18657337934107_cont_8to1_35_7_alg».proof.Proof.LibDotSum
import proofs.«180378_g18657337934107_cont_8to1_35_7_alg».proof.Proof.SumBlocks
import Idealize.ShloMosaic.PureOps.Ideal.Laws
import Idealize.ShloMosaic.Lib.ValueIdx

set_option maxRecDepth 16384

noncomputable section

open Idealize.ShloMosaic Idealize.ShloMosaic.TcCoe Idealize.SL.Sem
open scoped BigOperators
namespace Cert.KernelIdeal.Head

open Cert.KernelIdeal Cert.KernelIdeal.Gen Idealize.ShloMosaic.ValueIdx

/-! ## One visit's arithmetic at an output column, over the extended reals -/

/-- The block product at column `j`: the sum over the block's 3200 positions of row entry times matrix entry. -/
theorem blockDot_apply (x : FVec Ideal S1x3200 .f32) (w : FVec Ideal S3200x64 .f32) (j : Fin 64) :
    FloatOps.matmul (F := Ideal) dot_S1x3200_S3200x64_S1x64_1_0_0_1_n_n none x w (constant S1x64 .f32 0x00000000#32) (ix2 (0 : Fin 1) j)
      = ∑ k : Fin 3200, x (ix2 (0 : Fin 1) k) * w (ix2 k j) := by
  rw [Ideal.matmul_constant_zero_apply]
  exact Cert.Lib.dot2_sum dot_S1x3200_S3200x64_S1x64_1_0_0_1_n_n 0 1 1 0 rfl rfl rfl rfl rfl rfl 3200 rfl rfl x w (ix2 (0 : Fin 1) j)
    (fun k => ix2 (0 : Fin 1) k) (fun k => ix2 k j) (fun _ => rfl) (fun _ => rfl) (fun _ => rfl) (fun _ => rfl)

/-- The first output's update at column `j`: what it held plus the block product. -/
theorem pay4_apply (x : FVec Ideal S1x3200 .f32) (xo : FVec Ideal S1x64 .f32) (w : FVec Ideal S3200x64 .f32) (j : Fin 64) :
    k0_pay4 x xo w (ix2 (0 : Fin 1) j) = xo (ix2 (0 : Fin 1) j) + ∑ k : Fin 3200, x (ix2 (0 : Fin 1) k) * w (ix2 k j) := by
  unfold k0_pay4 k0_pay3
  simp only [shapeCast_self]
  exact congrArg (xo (ix2 (0 : Fin 1) j) + ·) (blockDot_apply x w j)

/-- The second output's update likewise. -/
theorem pay5_apply (x : FVec Ideal S1x3200 .f32) (xo : FVec Ideal S1x64 .f32) (w : FVec Ideal S3200x64 .f32) (j : Fin 64) :
    k0_pay5 x xo w (ix2 (0 : Fin 1) j) = xo (ix2 (0 : Fin 1) j) + ∑ k : Fin 3200, x (ix2 (0 : Fin 1) k) * w (ix2 k j) := by
  unfold k0_pay5 k0_pay3
  simp only [shapeCast_self]
  exact congrArg (xo (ix2 (0 : Fin 1) j) + ·) (blockDot_apply x w j)

theorem zeroA_apply (i : S1x64.Idx) : (k0_pay1 : FVec Ideal S1x64 .f32) i = 0 := by
  unfold k0_pay1
  exact Ideal.ofBits_zero_f32

theorem zeroV_apply (i : S1x64.Idx) : (k0_pay2 : FVec Ideal S1x64 .f32) i = 0 := by
  unfold k0_pay2
  exact Ideal.ofBits_zero_f32

/-! ## The running contents as sums over the blocks visited so far -/

section Sums

variable (V : (c : Dev nD) → (b : Ref sig .tc) → Buf (Elt Ideal) ((c : Thread nD τ).loc b))

/-- The row vector, and the two matrices, as the kernel finds them. -/
abbrev rowOf (c : Dev nD) : FVec Ideal S1x160000 .f32 := V c main_v110
abbrev matA (c : Dev nD) : FVec Ideal S160000x64 .f32 := V c main_arg6
abbrev matV (c : Dev nD) : FVec Ideal S160000x64 .f32 := V c main_arg10

/-- The three input blocks at a point, as arrays of extended reals. -/
abbrev blkRow (c : Dev nD) (t : Fin cfg0.N) : FVec Ideal S1x3200 .f32 := iblk0 V c 0 t
abbrev blkA (c : Dev nD) (t : Fin cfg0.N) : FVec Ideal S3200x64 .f32 := iblk0 V c 1 t
abbrev blkV (c : Dev nD) (t : Fin cfg0.N) : FVec Ideal S3200x64 .f32 := iblk0 V c 2 t

/-- Block `t`'s product against the first matrix at column `j` (zero past the grid, so that it is a function on ℕ). -/
def blockA (c : Dev nD) (j : Fin 64) (t : ℕ) : EReal :=
  if h : t < cfg0.N then
    ∑ k : Fin 3200, blkRow V c ⟨t, h⟩ (ix2 (0 : Fin 1) k) * blkA V c ⟨t, h⟩ (ix2 k j)
  else 0

/-- Block `t`'s product against the second matrix. -/
def blockV (c : Dev nD) (j : Fin 64) (t : ℕ) : EReal :=
  if h : t < cfg0.N then
    ∑ k : Fin 3200, blkRow V c ⟨t, h⟩ (ix2 (0 : Fin 1) k) * blkV V c ⟨t, h⟩ (ix2 k j)
  else 0

/-- The running contents as arrays of extended reals. -/
abbrev runA (c : Dev nD) (n : ℕ) (h : n < cfg0.N) : FVec Ideal S1x64 .f32 := accA V c n h
abbrev runV (c : Dev nD) (n : ℕ) (h : n < cfg0.N) : FVec Ideal S1x64 .f32 := accV V c n h

/-- After point `n` the first output holds, at column `j`, the sum of the products of blocks 0 … n. -/
theorem accA_apply (c : Dev nD) (j : Fin 64) : ∀ (n : ℕ) (h : n < cfg0.N),
    runA V c n h (ix2 (0 : Fin 1) j) = ∑ t ∈ Finset.range (n + 1), blockA V c j t
  | 0, h => by
    refine (pay4_apply (iblk0 V c 0 ⟨0, h⟩) (k0_pay1 (F := Ideal)) (iblk0 V c 1 ⟨0, h⟩) j).trans ?_
    rw [zeroA_apply, zero_add, Finset.sum_range_one, blockA, dif_pos h]
  | n + 1, h => by
    refine (pay4_apply (iblk0 V c 0 ⟨n + 1, h⟩) (accA V c n (Nat.lt_of_succ_lt h)) (iblk0 V c 1 ⟨n + 1, h⟩) j).trans ?_
    change runA V c n _ (ix2 (0 : Fin 1) j) + _ = _
    rw [accA_apply c j n, Finset.sum_range_succ _ (n + 1)]
    congr 1
    rw [blockA, dif_pos h]

/-- The second output likewise. -/
theorem accV_apply (c : Dev nD) (j : Fin 64) : ∀ (n : ℕ) (h : n < cfg0.N),
    runV V c n h (ix2 (0 : Fin 1) j) = ∑ t ∈ Finset.range (n + 1), blockV V c j t
  | 0, h => by
    refine (pay5_apply (iblk0 V c 0 ⟨0, h⟩) (k0_pay2 (F := Ideal)) (iblk0 V c 2 ⟨0, h⟩) j).trans ?_
    rw [zeroV_apply, zero_add, Finset.sum_range_one, blockV, dif_pos h]
  | n + 1, h => by
    refine (pay5_apply (iblk0 V c 0 ⟨n + 1, h⟩) (accV V c n (Nat.lt_of_succ_lt h)) (iblk0 V c 2 ⟨n + 1, h⟩) j).trans ?_
    change runV V c n _ (ix2 (0 : Fin 1) j) + _ = _
    rw [accV_apply c j n, Finset.sum_range_succ _ (n + 1)]
    congr 1
    rw [blockV, dif_pos h]

/-! ## The blocks read off the arrays -/

/-- Where the windows' blocks sit: the row's block `t` starts at column 3200·t, a matrix's block `t` at row 3200·t. -/
theorem idx_facts : ∀ t : Fin cfg0.N, win0_0.index t 0 = 0 ∧ win0_0.index t 1 = t.val ∧ win0_1.index t 0 = t.val ∧ win0_1.index t 1 = 0
    ∧ win0_2.index t 0 = t.val ∧ win0_2.index t 1 = 0 :=
  (by decide +kernel : ∀ t : Fin grid0.N, _)

/-- Position `k` of block `t` in an axis of length 160000. -/
def pos (t : Fin cfg0.N) (k : Fin 3200) : Fin 160000 :=
  ⟨k.val + 3200 * t.val, by have := t.isLt; have hN : cfg0.N = 50 := N_0; have := k.isLt; omega⟩

/-- Entry `k` of the row's block `t` is the row at column `3200·t + k`. -/
theorem iblk_row (c : Dev nD) (t : Fin cfg0.N) (k : Fin 3200) :
    blkRow V c t (ix2 (0 : Fin 1) k) = rowOf V c (ix2 (0 : Fin 1) (pos t k)) := by
  unfold blkRow iblk0
  rw [View.read_apply]
  show rowOf V c _ = rowOf V c _
  refine congrArg (rowOf V c) (funext fun a => Fin.ext ?_)
  obtain ⟨f0, f1, -⟩ := idx_facts t
  match a with
  | ⟨0, _⟩ => show win0_0.index t 0 * 1 + 1 * 0 = 0; rw [f0]
  | ⟨1, _⟩ => show win0_0.index t 1 * 3200 + 1 * k.val = k.val + 3200 * t.val; rw [f1]; omega

/-- Entry `(k, j)` of the first matrix's block `t` is the matrix at row `3200·t + k`. -/
theorem iblk_matA (c : Dev nD) (t : Fin cfg0.N) (k : Fin 3200) (j : Fin 64) :
    blkA V c t (ix2 k j) = matA V c (ix2 (pos t k) j) := by
  unfold blkA iblk0
  rw [View.read_apply]
  show matA V c _ = matA V c _
  refine congrArg (matA V c) (funext fun a => Fin.ext ?_)
  obtain ⟨-, -, f0, f1, -⟩ := idx_facts t
  match a with
  | ⟨0, _⟩ => show win0_1.index t 0 * 3200 + 1 * k.val = k.val + 3200 * t.val; rw [f0]; omega
  | ⟨1, _⟩ => show win0_1.index t 1 * 64 + 1 * j.val = j.val; rw [f1]; omega

/-- The second matrix likewise. -/
theorem iblk_matV (c : Dev nD) (t : Fin cfg0.N) (k : Fin 3200) (j : Fin 64) :
    blkV V c t (ix2 k j) = matV V c (ix2 (pos t k) j) := by
  unfold blkV iblk0
  rw [View.read_apply]
  show matV V c _ = matV V c _
  refine congrArg (matV V c) (funext fun a => Fin.ext ?_)
  obtain ⟨-, -, -, -, f0, f1⟩ := idx_facts t
  match a with
  | ⟨0, _⟩ => show win0_2.index t 0 * 3200 + 1 * k.val = k.val + 3200 * t.val; rw [f0]; omega
  | ⟨1, _⟩ => show win0_2.index t 1 * 64 + 1 * j.val = j.val; rw [f1]; omega

/-! ## The two results are the whole products -/

/-- A sum over fifty blocks of 3200 is the sum over all 160000 positions. -/
theorem sum_fifty (h : Fin 160000 → EReal) :
    ∑ t ∈ Finset.range 50, (if ht : t < cfg0.N then ∑ k : Fin 3200, h (pos ⟨t, ht⟩ k) else 0) = ∑ p : Fin 160000, h p := by
  have hN : cfg0.N = 50 := N_0
  rw [Finset.sum_range]
  rw [← Cert.Head.Sums.sum_blocks 50 3200 (fun p => h p)]
  refine Finset.sum_congr rfl fun t _ => ?_
  rw [dif_pos (by rw [hN]; exact t.isLt)]
  exact Finset.sum_congr rfl fun k _ => congrArg h (Fin.ext rfl)

/-- The first result at column `j`: the row times column `j` of the first matrix, all 160000 terms. -/
theorem resultA_apply (c : Dev nD) (j : Fin 64) :
    runA V c 49 lastLt (ix2 (0 : Fin 1) j) = ∑ p : Fin 160000, rowOf V c (ix2 (0 : Fin 1) p) * matA V c (ix2 p j) := by
  rw [accA_apply V c j 49 lastLt, ← sum_fifty (fun p => rowOf V c (ix2 (0 : Fin 1) p) * matA V c (ix2 p j))]
  refine Finset.sum_congr rfl fun t _ => ?_
  unfold blockA
  split
  · rename_i ht
    exact Finset.sum_congr rfl fun k _ => by rw [iblk_row V c ⟨t, ht⟩ k, iblk_matA V c ⟨t, ht⟩ k j]
  · rfl

/-- The second result at column `j`. -/
theorem resultV_apply (c : Dev nD) (j : Fin 64) :
    runV V c 49 lastLt (ix2 (0 : Fin 1) j) = ∑ p : Fin 160000, rowOf V c (ix2 (0 : Fin 1) p) * matV V c (ix2 p j) := by
  rw [accV_apply V c j 49 lastLt, ← sum_fifty (fun p => rowOf V c (ix2 (0 : Fin 1) p) * matV V c (ix2 p j))]
  refine Finset.sum_congr rfl fun t _ => ?_
  unfold blockV
  split
  · rename_i ht
    exact Finset.sum_congr rfl fun k _ => by rw [iblk_row V c ⟨t, ht⟩ k, iblk_matV V c ⟨t, ht⟩ k j]
  · rfl

end Sums

end Cert.KernelIdeal.Head

end
-- ==== Proof.LibRowReduce.lean ====
/-
  Reductions of a one-row matrix along its row, and of a matrix along its columns, read at an index over the extended
  reals: the inserted coordinate of the reduced axis is the summation (or fold) variable, the kept coordinate stays.

  * a `[1, n]` array reduced along axis 1 into `[1]`: the fold or sum runs over `k : Fin n` of the entries `(0, k)`;
  * an `[m, n]` array reduced along axis 0 into `[n]`: the sum at `j` runs over `k : Fin m` of the entries `(k, j)`.
-/
import Idealize.ShloMosaic.PureOps.Ideal.Laws
import Idealize.ShloMosaic.Lib.ValueIdx

namespace Cert.Head.RowReduce

open Idealize.ShloMosaic Idealize.ShloMosaic.ValueIdx

variable {φ : FTy}

/-- Reducing `[1, n]` along axis 1: coordinate `k` inserted at the one reduced index is `(0, k)`. -/
theorem lift_row {n : ℕ} (h : Shape.Reduces ⟨2, ![1, n]⟩ [1] ⟨1, ![1]⟩) (j : (⟨1, ![1]⟩ : Shape).Idx) (k : Fin n) :
    h.lift j k = ix2 (0 : Fin 1) k := by
  funext a
  apply Fin.ext
  match a with
  | ⟨0, _⟩ =>
    have hj : (j 0).val < 1 := (j 0).isLt
    show (j 0).val = 0
    omega
  | ⟨1, _⟩ => rfl

/-- Reducing `[m, n]` along axis 0: coordinate `k` inserted at the reduced index `j` is `(k, j)`. -/
theorem lift_col {m n : ℕ} (h : Shape.Reduces ⟨2, ![m, n]⟩ [0] ⟨1, ![n]⟩) (j : (⟨1, ![n]⟩ : Shape).Idx) (k : Fin m) :
    h.lift j k = ix2 k (j 0) := by
  funext a
  apply Fin.ext
  match a with
  | ⟨0, _⟩ => rfl
  | ⟨1, _⟩ => rfl

/-- A row's maximum as the kernel takes it: the fold of `max` from the accumulator over the row's entries. -/
theorem rowMax_apply {n : ℕ} (L : FVec Ideal ⟨2, ![1, n]⟩ φ) (acc : BitVec φ.bits)
    (h : Shape.Reduces ⟨2, ![1, n]⟩ [1] ⟨1, ![1]⟩) (hφ : FKind.Formats φ) (hacc : acc = FKind.maximumf.neutral φ hφ)
    (j : (⟨1, ![1]⟩ : Shape).Idx) :
    multiReduction .maximumf [1] ⟨1, ![1]⟩ L acc h hφ hacc j
      = (Finset.univ : Finset (Fin n)).fold max (FloatOps.ofBits φ acc) (fun k => L (ix2 (0 : Fin 1) k)) := by
  rw [Ideal.multiReduction_maximumf_single]
  have e : (L ∘ h.lift j) = fun k : Fin n => L (ix2 (0 : Fin 1) k) := funext fun k => congrArg L (lift_row h j k)
  rw [e]
  rfl

/-- A row's sum as the kernel takes it. -/
theorem rowSum_apply {n : ℕ} (L : FVec Ideal ⟨2, ![1, n]⟩ φ) (acc : BitVec φ.bits)
    (h : Shape.Reduces ⟨2, ![1, n]⟩ [1] ⟨1, ![1]⟩) (hφ : FKind.Formats φ) (hacc : acc = FKind.add.neutral φ hφ)
    (j : (⟨1, ![1]⟩ : Shape).Idx) :
    multiReduction .add [1] ⟨1, ![1]⟩ L acc h hφ hacc j = ∑ k : Fin n, L (ix2 (0 : Fin 1) k) := by
  rw [Ideal.multiReduction_add_single]
  exact Finset.sum_congr rfl fun k _ => congrArg L (lift_row h j k)

/-- The column sums of a matrix as the kernel takes them. -/
theorem colSum_apply {m n : ℕ} (X : FVec Ideal ⟨2, ![m, n]⟩ φ) (acc : BitVec φ.bits)
    (h : Shape.Reduces ⟨2, ![m, n]⟩ [0] ⟨1, ![n]⟩) (hφ : FKind.Formats φ) (hacc : acc = FKind.add.neutral φ hφ)
    (j : Fin n) :
    multiReduction .add [0] ⟨1, ![n]⟩ X acc h hφ hacc (ix1 j) = ∑ k : Fin m, X (ix2 k j) := by
  rw [Ideal.multiReduction_add_single]
  exact Finset.sum_congr rfl fun k _ => congrArg X (lift_col h (ix1 j) k)

/-- The host's maximum of a row from an initial value: the same fold. -/
theorem hostRowMax_apply {n : ℕ} {u : Shape} (L : (⟨2, ![1, n]⟩ : Shape).Idx → EReal) (init : u.Idx → EReal)
    (h' : Shape.ReducesTo ⟨2, ![1, n]⟩ [1] ⟨1, ![1]⟩) (h : Shape.Reduces ⟨2, ![1, n]⟩ [1] ⟨1, ![1]⟩) (hu : 0 < u.numel)
    (j : (⟨1, ![1]⟩ : Shape).Idx) :
    Host.reduce (max : EReal → EReal → EReal) L init h' hu j
      = (Finset.univ : Finset (Fin n)).fold max (init (Shape.Idx.first hu)) (fun k => L (ix2 (0 : Fin 1) k)) := by
  rw [Host.reduce_eq_fold_single (max : EReal → EReal → EReal) L init h' h hu j]
  have e : (L ∘ h.lift j) = fun k : Fin n => L (ix2 (0 : Fin 1) k) := funext fun k => congrArg L (lift_row h j k)
  rw [e]
  rfl

/-- The host's sum of a row from an initial value. -/
theorem hostRowSum_apply {n : ℕ} (L : (⟨2, ![1, n]⟩ : Shape).Idx → EReal) (init : EReal)
    (h' : Shape.ReducesTo ⟨2, ![1, n]⟩ [1] ⟨1, ![1]⟩) (h : Shape.Reduces ⟨2, ![1, n]⟩ [1] ⟨1, ![1]⟩)
    (j : (⟨1, ![1]⟩ : Shape).Idx) :
    Ideal.hostReduceAdd h' L init j = init + ∑ k : Fin n, L (ix2 (0 : Fin 1) k) := by
  rw [Ideal.hostReduceAdd_single h' h]
  exact congrArg (init + ·) (Finset.sum_congr rfl fun k _ => congrArg L (lift_row h j k))

end Cert.Head.RowReduce
-- ==== Proof.Spec.lean ====
/-
  The policy and value heads as functions of their inputs over the extended reals, index by index.

  * hidden k   = max (a k + b k) 0                          (a bias added, then the rectifier)
  * logits n   = (∑ k, h k · W k n) + b n                   (64 hidden units against a 64 × N matrix, plus a bias)
  * rowMax L   = the fold of max over the row, starting from −∞
  * logSoftmax = (L i − rowMax L) − log (∑ k, exp (L k − rowMax L))
  * valueOf    = tanh ((∑ k, h k · w k) + b)
-/
import Idealize.ShloMosaic.PureOps.Ideal
import Idealize.ShloMosaic.Lib.ValueIdx

noncomputable section

namespace Cert.Head.Spec

open Idealize.ShloMosaic

/-- −∞, as both programs spell the start of a maximum. -/
abbrev negInf : EReal := Ideal.ofBits .f32 0xFF800000#32

theorem negInf_eq : negInf = ⊥ := by simp [negInf, Ideal.ofBits, Ideal.ieee]

/-- A bias added, then the rectifier. -/
def hidden {n : ℕ} (a b : Fin n → EReal) (k : Fin n) : EReal := max (a k + b k) 0

/-- One dense layer's outputs. -/
def logits {m n : ℕ} (h : Fin m → EReal) (W : Fin m → Fin n → EReal) (b : Fin n → EReal) (j : Fin n) : EReal :=
  (∑ k : Fin m, h k * W k j) + b j

/-- The largest entry of a row (−∞ for the empty row). -/
def rowMax {n : ℕ} (L : Fin n → EReal) : EReal := (Finset.univ : Finset (Fin n)).fold max negInf L

/-- The logarithm of the softmax of a row, shifted by the row's maximum as both programs do. -/
def logSoftmax {n : ℕ} (L : Fin n → EReal) (i : Fin n) : EReal :=
  (L i - rowMax L) - Ideal.log (∑ k : Fin n, Ideal.exp (L k - rowMax L))

/-- The value head: one unit with a tanh. -/
def valueOf {m : ℕ} (h : Fin m → EReal) (w : Fin m → EReal) (b : EReal) : EReal :=
  Ideal.tanh ((∑ k : Fin m, h k * w k) + b)

end Cert.Head.Spec

end
-- ==== Proof.HeadTwoMath.lean ====
/-
  The second kernel's arithmetic over the extended reals, index by index: its first store is the log-softmax of the
  logits of the rectified hidden row, its second the tanh of the value unit — the specification's functions of the
  operand arrays' entries. Only layout readings and the definitions of the reductions are used; no algebraic law.
-/
import proofs.«180378_g18657337934107_cont_8to1_35_7_alg».proof.Proof.Gen.KernelIdeal.Skeleton
import proofs.«180378_g18657337934107_cont_8to1_35_7_alg».proof.Proof.LibRowReduce
import proofs.«180378_g18657337934107_cont_8to1_35_7_alg».proof.Proof.Spec
import Idealize.ShloMosaic.Lib.Pipeline.Value
import Idealize.ShloMosaic.Lib.ValueLayout
import Idealize.ShloMosaic.PureOps.Ideal.Laws
import Idealize.ShloMosaic.Lib.ValueIdx

set_option maxRecDepth 16384

noncomputable section

open Idealize.ShloMosaic Idealize.ShloMosaic.TcCoe Idealize.SL.Sem
open scoped BigOperators
namespace Cert.KernelIdeal.Head

open Cert.KernelIdeal Cert.KernelIdeal.Gen Idealize.ShloMosaic.ValueIdx Cert.Head.Spec Cert.Head.RowReduce

/-! ## Layout operations of the second kernel read at an index -/

/-- A `[1, 64]` row re-laid as a `[64, 1]` column: entry `(k, 0)` is entry `(0, k)`. -/
theorem rowToCol_apply (v : FVec Ideal S1x64 .f32) (h : S1x64.ShapeCasts S64x1) (k : Fin 64) :
    shapeCast S64x1 v h (ix2 k (0 : Fin 1)) = v (ix2 (0 : Fin 1) k) :=
  shapeCast_apply v h _ _ (by
    rw [Shape.rowMajor_val_two, Shape.rowMajor_val_two]
    show 0 * 64 + k.val = k.val * 1 + 0
    omega)

/-- A `[64, 1]` column broadcast along a second axis: entry `(k, n)` is the column's entry `k`. -/
theorem colBroadcast_apply {N : ℕ} (v : FVec Ideal S64x1 .f32) (h : S64x1.Broadcasts ⟨2, ![64, N]⟩) (k : Fin 64) (n : Fin N) :
    broadcastTo ⟨2, ![64, N]⟩ v h (ix2 k n) = v (ix2 k (0 : Fin 1)) := by
  refine broadcastTo_apply v h (ix2 k n) (ix2 k (0 : Fin 1)) fun ax => ?_
  match ax with
  | ⟨0, _⟩ => rfl
  | ⟨1, _⟩ => rfl

/-- A `[1, 1]` cell broadcast along a row: every entry is the cell. -/
theorem cellBroadcast_apply {N : ℕ} (v : FVec Ideal S1x1 .f32) (h : S1x1.Broadcasts ⟨2, ![1, N]⟩) (n : Fin N) :
    broadcastTo ⟨2, ![1, N]⟩ v h (ix2 (0 : Fin 1) n) = v (ix2 (0 : Fin 1) (0 : Fin 1)) := by
  refine broadcastTo_apply v h (ix2 (0 : Fin 1) n) (ix2 (0 : Fin 1) (0 : Fin 1)) fun ax => ?_
  match ax with
  | ⟨0, _⟩ => rfl
  | ⟨1, _⟩ => rfl

/-! ## The hidden layer, the logits, the log-softmax, the value -/

/-- The rectified hidden row, re-laid as a column and broadcast: entry `(k, n)` is hidden unit `k`. -/
theorem hiddenCol_apply {N : ℕ} (a b : FVec Ideal S1x64 .f32) (h0 h0' : S1x64.ShapeCasts S1x64) (h1 : S1x64.ShapeCasts S64x1)
    (h2 : S64x1.Broadcasts ⟨2, ![64, N]⟩) (k : Fin 64) (n : Fin N) :
    broadcastTo ⟨2, ![64, N]⟩ (shapeCast S64x1 (maximumf (addf (shapeCast S1x64 a h0) (shapeCast S1x64 b h0'))
        (broadcast S1x64 (Scalar.ofBits .f32 0x00000000#32))) h1) h2 (ix2 k n)
      = hidden (fun k => a (ix2 (0 : Fin 1) k)) (fun k => b (ix2 (0 : Fin 1) k)) k := by
  rw [colBroadcast_apply, rowToCol_apply, shapeCast_self, shapeCast_self]
  show max (a (ix2 (0 : Fin 1) k) + b (ix2 (0 : Fin 1) k)) (Ideal.ofBits .f32 0x00000000#32) = _
  rw [Ideal.ofBits_zero_f32]
  rfl

/-- The logits row at column `n`. -/
theorem logitsRow_apply (a b : FVec Ideal S1x64 .f32) (W : FVec Ideal S64x10000 .f32) (c : FVec Ideal S1x10000 .f32)
    (h0 h0' : S1x64.ShapeCasts S1x64) (h1 : S1x64.ShapeCasts S64x1) (h2 : S64x1.Broadcasts S64x10000)
    (hR : S64x10000.Reduces [0] S10000) (hφ : FKind.Formats .f32) (hacc : (0x00000000#32 : BitVec 32) = FKind.add.neutral .f32 hφ)
    (h3 : S10000.ShapeCasts S1x10000) (h4 : S1x10000.ShapeCasts S1x10000) (n : Fin 10000) :
    addf (shapeCast S1x10000 (multiReduction .add [0] S10000 (mulf (broadcastTo S64x10000 (shapeCast S64x1 (maximumf
        (addf (shapeCast S1x64 a h0) (shapeCast S1x64 b h0')) (broadcast S1x64 (Scalar.ofBits .f32 0x00000000#32))) h1) h2) W)
        0x00000000#32 hR hφ hacc) h3) (shapeCast S1x10000 c h4) (ix2 (0 : Fin 1) n)
      = logits (hidden (fun k => a (ix2 (0 : Fin 1) k)) (fun k => b (ix2 (0 : Fin 1) k))) (fun k n => W (ix2 k n))
          (fun n => c (ix2 (0 : Fin 1) n)) n := by
  rw [addf_apply, shapeCast_self c h4, shapeCast_a_1a_apply]
  unfold logits
  refine congrArg (· + c (ix2 (0 : Fin 1) n)) ?_
  refine (colSum_apply _ 0x00000000#32 hR hφ hacc n).trans ?_
  refine Finset.sum_congr rfl fun k _ => ?_
  rw [mulf_apply, hiddenCol_apply]

/-- The shifted log-sum-exp of a row, as the kernel lays it out, is the log-softmax of the row. -/
theorem lsmRow_apply (L : FVec Ideal S1x10000 .f32) (hR : S1x10000.Reduces [1] S1)
    (hφ1 : FKind.Formats .f32) (ha1 : (0xFF800000#32 : BitVec 32) = FKind.maximumf.neutral .f32 hφ1)
    (hφ2 : FKind.Formats .f32) (ha2 : (0x00000000#32 : BitVec 32) = FKind.add.neutral .f32 hφ2)
    (hc : S1.ShapeCasts S1x1) (hb : S1x1.Broadcasts S1x10000) (n : Fin 10000) :
    subf (subf L (broadcastTo S1x10000 (shapeCast S1x1 (multiReduction .maximumf [1] S1 L 0xFF800000#32 hR hφ1 ha1) hc) hb))
      (broadcastTo S1x10000 (log (shapeCast S1x1 (multiReduction .add [1] S1 (exp (subf L (broadcastTo S1x10000
        (shapeCast S1x1 (multiReduction .maximumf [1] S1 L 0xFF800000#32 hR hφ1 ha1) hc) hb))) 0x00000000#32 hR hφ2 ha2) hc)) hb)
      (ix2 (0 : Fin 1) n)
      = logSoftmax (fun k => L (ix2 (0 : Fin 1) k)) n := by
  have hM : ∀ n' : Fin 10000, broadcastTo S1x10000 (shapeCast S1x1 (multiReduction .maximumf [1] S1 L 0xFF800000#32 hR hφ1 ha1) hc) hb
      (ix2 (0 : Fin 1) n') = rowMax (fun k => L (ix2 (0 : Fin 1) k)) := fun n' => by
    rw [cellBroadcast_apply, shapeCast_a_1a_apply]
    exact rowMax_apply L 0xFF800000#32 hR hφ1 ha1 (ix1 (0 : Fin 1))
  rw [subf_apply, subf_apply, hM, cellBroadcast_apply]
  show _ - Ideal.log (shapeCast S1x1 _ hc (ix2 (0 : Fin 1) (0 : Fin 1))) = _
  rw [shapeCast_a_1a_apply]
  refine congrArg (fun z => (L (ix2 (0 : Fin 1) n) - rowMax (fun k => L (ix2 (0 : Fin 1) k))) - Ideal.log z) ?_
  refine (rowSum_apply _ 0x00000000#32 hR hφ2 ha2 (ix1 (0 : Fin 1))).trans ?_
  refine Finset.sum_congr rfl fun k _ => ?_
  show Ideal.exp (L (ix2 (0 : Fin 1) k) - _) = _
  rw [hM]

/-- The kernel's first store at column `n`: the log-softmax of the logits. -/
theorem pay2_apply (a b : FVec Ideal S1x64 .f32) (W : FVec Ideal S64x10000 .f32) (c : FVec Ideal S1x10000 .f32) (n : Fin 10000) :
    k1_pay2 (F := Ideal) a b W c (ix2 (0 : Fin 1) n)
      = logSoftmax (logits (hidden (fun k => a (ix2 (0 : Fin 1) k)) (fun k => b (ix2 (0 : Fin 1) k))) (fun k n => W (ix2 k n))
          (fun n => c (ix2 (0 : Fin 1) n))) n := by
  unfold k1_pay2
  dsimp only
  refine (lsmRow_apply _ _ _ _ _ _ _ _ n).trans ?_
  refine congrArg (fun L => logSoftmax L n) (funext fun n' => ?_)
  exact logitsRow_apply a b W c _ _ _ _ _ _ _ _ _ n'

/-- The kernel's second store: the value. -/
theorem pay1_apply' (a b : FVec Ideal S1x64 .f32) (w : FVec Ideal S64x1 .f32) (c : FVec Ideal S1x1 .f32) :
    k1_pay1 (F := Ideal) (k1_pay3 (F := Ideal) a b) w c (ix2 (0 : Fin 1) (0 : Fin 1))
      = valueOf (hidden (fun k => a (ix2 (0 : Fin 1) k)) (fun k => b (ix2 (0 : Fin 1) k))) (fun k => w (ix2 k (0 : Fin 1)))
          (c (ix2 (0 : Fin 1) (0 : Fin 1))) := by
  unfold k1_pay1 k1_pay3
  dsimp only
  show Ideal.tanh (addf (shapeCast S1x1 _ _) (shapeCast S1x1 c _) (ix2 (0 : Fin 1) (0 : Fin 1))) = _
  rw [addf_apply, shapeCast_self c, shapeCast_a_1a_apply]
  unfold valueOf
  refine congrArg (fun z => Ideal.tanh (z + c (ix2 (0 : Fin 1) (0 : Fin 1)))) ?_
  refine (colSum_apply (m := 64) (n := 1) _ 0x00000000#32 reduces_S64x1_S1 (.inl rfl) rfl (0 : Fin 1)).trans ?_
  refine Finset.sum_congr rfl fun k _ => ?_
  rw [mulf_apply, rowToCol_apply, shapeCast_self, shapeCast_self]
  show max (a (ix2 (0 : Fin 1) k) + b (ix2 (0 : Fin 1) k)) (Ideal.ofBits .f32 0x00000000#32) * _ = _
  rw [Ideal.ofBits_zero_f32]
  rfl

end Cert.KernelIdeal.Head

end
-- ==== Proof.RefValue.lean ====
/-
  The reference's two results over the extended reals, index by index: the log-softmax of the policy head's logits and
  the tanh of the value unit — the specification's functions of the reference's operations' entries, read one
  operation at a time. The reference's row maximum is joined with −∞ once more than the kernel's; −∞ is the least
  extended real, so that changes nothing.
-/
import proofs.«180378_g18657337934107_cont_8to1_35_7_alg».proof.Proof.RefReadP
import proofs.«180378_g18657337934107_cont_8to1_35_7_alg».proof.Proof.LibRowReduce
import proofs.«180378_g18657337934107_cont_8to1_35_7_alg».proof.Proof.Spec
import Idealize.ShloMosaic.PureOps.Ideal.Laws
import Idealize.ShloMosaic.Lib.ValueIdx

set_option maxRecDepth 16384

noncomputable section

open Idealize.ShloMosaic Idealize.ShloMosaic.TcCoe Idealize.SL.Sem
open scoped BigOperators
namespace Cert.ReferenceIdeal.RefHead

open Cert.ReferenceIdeal Cert.ReferenceIdeal.ReadP Idealize.ShloMosaic.ValueIdx Cert.Head.Spec Cert.Head.RowReduce

/-- Two coordinates that agree give the same index. -/
theorem idx2_ext {n0 n1 : ℕ} (i j : (⟨2, ![n0, n1]⟩ : Shape).Idx) (h0 : (i 0).val = (j 0).val) (h1 : (i 1).val = (j 1).val) : i = j :=
  funext fun a => Fin.ext (by match a with | ⟨0, _⟩ => exact h0 | ⟨1, _⟩ => exact h1)
theorem idx1_ext {n0 : ℕ} (i j : (⟨1, ![n0]⟩ : Shape).Idx) (h0 : (i 0).val = (j 0).val) : i = j :=
  funext fun a => Fin.ext (by match a with | ⟨0, _⟩ => exact h0)

theorem max_negInf (y : EReal) : max negInf y = y := by rw [negInf_eq]; exact max_eq_right bot_le

/-! ## The two first-layer products -/

/-- The policy head's first layer at column `j`: the feature row times column `j`, all 160000 terms. -/
theorem preA_apply (x0 : (⟨S10000x4, .f32⟩ : BufTy).Contents (Elt Ideal)) (x1 : (⟨S2x320000, .i32⟩ : BufTy).Contents (Elt Ideal)) (x2 : (⟨S4x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S160000x64, .f32⟩ : BufTy).Contents (Elt Ideal)) (j : Fin 64) :
    val_main_v111 (F := Ideal) x0 x1 x2 x3 x4 x5 x6 (ix2 (0 : Fin 1) j)
      = ∑ p : Fin 160000, val_main_v110 (F := Ideal) x0 x1 x2 x3 x4 x5 (ix2 (0 : Fin 1) p) * x6 (ix2 p j) := by
  rw [val_main_v111_apply]
  refine Finset.sum_congr rfl fun p _ => ?_
  rw [idx2_ext (lidx_main_v111 (ix2 (0 : Fin 1) j) p) (ix2 (0 : Fin 1) p) rfl rfl,
    idx2_ext (ridx_main_v111 (ix2 (0 : Fin 1) j) p) (ix2 p j) rfl rfl]

/-- The value head's first layer likewise. -/
theorem preV_apply (x0 : (⟨S10000x4, .f32⟩ : BufTy).Contents (Elt Ideal)) (x1 : (⟨S2x320000, .i32⟩ : BufTy).Contents (Elt Ideal)) (x2 : (⟨S4x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x10 : (⟨S160000x64, .f32⟩ : BufTy).Contents (Elt Ideal)) (j : Fin 64) :
    val_main_v119 (F := Ideal) x0 x1 x2 x3 x4 x5 x10 (ix2 (0 : Fin 1) j)
      = ∑ p : Fin 160000, val_main_v110 (F := Ideal) x0 x1 x2 x3 x4 x5 (ix2 (0 : Fin 1) p) * x10 (ix2 p j) := by
  rw [val_main_v119_apply]
  refine Finset.sum_congr rfl fun p _ => ?_
  rw [idx2_ext (lidx_main_v119 (ix2 (0 : Fin 1) j) p) (ix2 (0 : Fin 1) p) rfl rfl,
    idx2_ext (ridx_main_v119 (ix2 (0 : Fin 1) j) p) (ix2 p j) rfl rfl]

/-! ## The hidden rows -/

theorem hiddenA_apply (x0 : (⟨S10000x4, .f32⟩ : BufTy).Contents (Elt Ideal)) (x1 : (⟨S2x320000, .i32⟩ : BufTy).Contents (Elt Ideal)) (x2 : (⟨S4x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S160000x64, .f32⟩ : BufTy).Contents (Elt Ideal)) (x7 : (⟨S64, .f32⟩ : BufTy).Contents (Elt Ideal)) (k : Fin 64) :
    val_main_v114 (F := Ideal) x0 x1 x2 x3 x4 x5 x6 x7 (ix2 (0 : Fin 1) k)
      = hidden (fun k => val_main_v111 (F := Ideal) x0 x1 x2 x3 x4 x5 x6 (ix2 (0 : Fin 1) k)) (fun k => x7 (ix1 k)) k := by
  rw [val_main_v114_apply, val_main_v113_apply, val_main_v112_apply, val_main_call2_v0_apply, val_main_call2_cst_apply,
    idx1_ext (idx_main_v112 (ix2 (0 : Fin 1) k)) (ix1 k) rfl]
  show max (_ + _) (Ideal.ofBits .f32 0x00000000#32) = _
  rw [Ideal.ofBits_zero_f32]
  rfl

theorem hiddenV_apply (x0 : (⟨S10000x4, .f32⟩ : BufTy).Contents (Elt Ideal)) (x1 : (⟨S2x320000, .i32⟩ : BufTy).Contents (Elt Ideal)) (x2 : (⟨S4x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x10 : (⟨S160000x64, .f32⟩ : BufTy).Contents (Elt Ideal)) (x11 : (⟨S64, .f32⟩ : BufTy).Contents (Elt Ideal)) (k : Fin 64) :
    val_main_v122 (F := Ideal) x0 x1 x2 x3 x4 x5 x10 x11 (ix2 (0 : Fin 1) k)
      = hidden (fun k => val_main_v119 (F := Ideal) x0 x1 x2 x3 x4 x5 x10 (ix2 (0 : Fin 1) k)) (fun k => x11 (ix1 k)) k := by
  rw [val_main_v122_apply, val_main_v121_apply, val_main_v120_apply, val_main_call4_v0_apply, val_main_call4_cst_apply,
    idx1_ext (idx_main_v120 (ix2 (0 : Fin 1) k)) (ix1 k) rfl]
  show max (_ + _) (Ideal.ofBits .f32 0x00000000#32) = _
  rw [Ideal.ofBits_zero_f32]
  rfl

/-! ## The logits and their log-softmax -/

theorem logitsR_apply (x0 : (⟨S10000x4, .f32⟩ : BufTy).Contents (Elt Ideal)) (x1 : (⟨S2x320000, .i32⟩ : BufTy).Contents (Elt Ideal)) (x2 : (⟨S4x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S160000x64, .f32⟩ : BufTy).Contents (Elt Ideal)) (x7 : (⟨S64, .f32⟩ : BufTy).Contents (Elt Ideal)) (x8 : (⟨S64x10000, .f32⟩ : BufTy).Contents (Elt Ideal)) (x9 : (⟨S10000, .f32⟩ : BufTy).Contents (Elt Ideal)) (n : Fin 10000) :
    val_main_v117 (F := Ideal) x0 x1 x2 x3 x4 x5 x6 x7 x8 x9 (ix2 (0 : Fin 1) n)
      = logits (fun k => val_main_v114 (F := Ideal) x0 x1 x2 x3 x4 x5 x6 x7 (ix2 (0 : Fin 1) k)) (fun k n => x8 (ix2 k n)) (fun n => x9 (ix1 n)) n := by
  rw [val_main_v117_apply, val_main_v115_apply, val_main_v116_apply,
    idx1_ext (idx_main_v116 (ix2 (0 : Fin 1) n)) (ix1 n) rfl]
  unfold logits
  refine congrArg (· + x9 (ix1 n)) (Finset.sum_congr rfl fun k _ => ?_)
  rw [idx2_ext (lidx_main_v115 (ix2 (0 : Fin 1) n) k) (ix2 (0 : Fin 1) k) rfl rfl,
    idx2_ext (ridx_main_v115 (ix2 (0 : Fin 1) n) k) (ix2 k n) rfl rfl]

/-- The row's maximum as the reference takes it: −∞ joined with the reduction from −∞. -/
theorem maxR_apply (x0 : (⟨S10000x4, .f32⟩ : BufTy).Contents (Elt Ideal)) (x1 : (⟨S2x320000, .i32⟩ : BufTy).Contents (Elt Ideal)) (x2 : (⟨S4x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S160000x64, .f32⟩ : BufTy).Contents (Elt Ideal)) (x7 : (⟨S64, .f32⟩ : BufTy).Contents (Elt Ideal)) (x8 : (⟨S64x10000, .f32⟩ : BufTy).Contents (Elt Ideal)) (x9 : (⟨S10000, .f32⟩ : BufTy).Contents (Elt Ideal)) (i : S1.Idx) :
    val_main_call3_v2 (F := Ideal) x0 x1 x2 x3 x4 x5 x6 x7 x8 x9 i
      = rowMax (fun k => val_main_v117 (F := Ideal) x0 x1 x2 x3 x4 x5 x6 x7 x8 x9 (ix2 (0 : Fin 1) k)) := by
  rw [val_main_call3_v2_apply, val_main_call3_v1_apply, val_main_call3_cst_0_apply]
  show max (Ideal.ofBits .f32 0xFF800000#32) (val_main_call3_v0 (F := Ideal) x0 x1 x2 x3 x4 x5 x6 x7 x8 x9 i) = _
  refine (max_negInf _).trans ?_
  unfold val_main_call3_v0
  exact hostRowMax_apply _ _ _ (by decide) _ i

theorem lsmR_apply (x0 : (⟨S10000x4, .f32⟩ : BufTy).Contents (Elt Ideal)) (x1 : (⟨S2x320000, .i32⟩ : BufTy).Contents (Elt Ideal)) (x2 : (⟨S4x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S160000x64, .f32⟩ : BufTy).Contents (Elt Ideal)) (x7 : (⟨S64, .f32⟩ : BufTy).Contents (Elt Ideal)) (x8 : (⟨S64x10000, .f32⟩ : BufTy).Contents (Elt Ideal)) (x9 : (⟨S10000, .f32⟩ : BufTy).Contents (Elt Ideal)) (n : Fin 10000) :
    val_main_v118 (F := Ideal) x0 x1 x2 x3 x4 x5 x6 x7 x8 x9 (ix2 (0 : Fin 1) n)
      = logSoftmax (fun k => val_main_v117 (F := Ideal) x0 x1 x2 x3 x4 x5 x6 x7 x8 x9 (ix2 (0 : Fin 1) k)) n := by
  obtain ⟨L, hL⟩ : ∃ L : Fin 10000 → EReal, ∀ k, val_main_v117 (F := Ideal) x0 x1 x2 x3 x4 x5 x6 x7 x8 x9 (ix2 (0 : Fin 1) k) = L k :=
    ⟨_, fun _ => rfl⟩
  have hM : ∀ i : S1.Idx, val_main_call3_v2 (F := Ideal) x0 x1 x2 x3 x4 x5 x6 x7 x8 x9 i = rowMax L := fun i => by
    rw [maxR_apply]
    simp only [hL]
  have hS : ∀ n' : Fin 10000, val_main_call3_v5 (F := Ideal) x0 x1 x2 x3 x4 x5 x6 x7 x8 x9 (ix2 (0 : Fin 1) n') = L n' - rowMax L := fun n' => by
    rw [val_main_call3_v5_apply, val_main_call3_v4_apply, val_main_call3_v3_apply, hM, hL]
    rfl
  have hidx : ∀ k : Fin 10000, idx_main_call3_v7 (idx_main_call3_v8 (idx_main_call3_v10 (ix2 (0 : Fin 1) n))) k = ix2 (0 : Fin 1) k :=
    fun k => idx2_ext _ _ rfl rfl
  rw [val_main_v118_apply, val_main_call3_v10_apply, val_main_call3_v9_apply, val_main_call3_v8_apply, val_main_call3_v7_apply,
    val_main_call3_cst_1_apply, hS]
  unfold logSoftmax
  simp only [Ideal.subf_def, Ideal.hostUnary_log_def, Ideal.ofBits_def, Ideal.ofBits_zero_f32, zero_add, val_main_call3_v6_apply,
    Ideal.hostUnary_exp_def, hidx, hS, hL]

/-- The reference's first result at column `n`. -/
theorem logp_apply (x0 : (⟨S10000x4, .f32⟩ : BufTy).Contents (Elt Ideal)) (x1 : (⟨S2x320000, .i32⟩ : BufTy).Contents (Elt Ideal)) (x2 : (⟨S4x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S160000x64, .f32⟩ : BufTy).Contents (Elt Ideal)) (x7 : (⟨S64, .f32⟩ : BufTy).Contents (Elt Ideal)) (x8 : (⟨S64x10000, .f32⟩ : BufTy).Contents (Elt Ideal)) (x9 : (⟨S10000, .f32⟩ : BufTy).Contents (Elt Ideal)) (n : Fin 10000) :
    val_main_v118 (F := Ideal) x0 x1 x2 x3 x4 x5 x6 x7 x8 x9 (ix2 (0 : Fin 1) n)
      = logSoftmax (logits (hidden (fun k => val_main_v111 (F := Ideal) x0 x1 x2 x3 x4 x5 x6 (ix2 (0 : Fin 1) k)) (fun k => x7 (ix1 k)))
          (fun k n => x8 (ix2 k n)) (fun n => x9 (ix1 n))) n := by
  rw [lsmR_apply]
  refine congrArg (fun L => logSoftmax L n) (funext fun n' => ?_)
  rw [logitsR_apply]
  refine congrArg (fun h => logits h (fun k n => x8 (ix2 k n)) (fun n => x9 (ix1 n)) n') (funext fun k => ?_)
  exact hiddenA_apply x0 x1 x2 x3 x4 x5 x6 x7 k

/-- The reference's second result. -/
theorem value_apply (x0 : (⟨S10000x4, .f32⟩ : BufTy).Contents (Elt Ideal)) (x1 : (⟨S2x320000, .i32⟩ : BufTy).Contents (Elt Ideal)) (x2 : (⟨S4x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x10 : (⟨S160000x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) :
    val_main_v126 (F := Ideal) x0 x1 x2 x3 x4 x5 x10 x11 x12 x13 (ix2 (0 : Fin 1) (0 : Fin 1))
      = valueOf (hidden (fun k => val_main_v119 (F := Ideal) x0 x1 x2 x3 x4 x5 x10 (ix2 (0 : Fin 1) k)) (fun k => x11 (ix1 k)))
          (fun k => x12 (ix2 k (0 : Fin 1))) (x13 (ix1 (0 : Fin 1))) := by
  rw [val_main_v126_apply]
  rw [val_main_v125_apply]
  rw [val_main_v123_apply]
  rw [val_main_v124_apply]
  rw [idx1_ext (idx_main_v124 (ix2 (0 : Fin 1) (0 : Fin 1))) (ix1 (0 : Fin 1)) rfl]
  simp only [Ideal.hostUnary_tanh_def, Ideal.addf_def]
  unfold valueOf
  refine congrArg (fun z => Ideal.tanh (z + x13 (ix1 (0 : Fin 1)))) (Finset.sum_congr rfl fun k _ => ?_)
  rw [idx2_ext (lidx_main_v123 (ix2 (0 : Fin 1) (0 : Fin 1)) k) (ix2 (0 : Fin 1) k) rfl rfl,
    idx2_ext (ridx_main_v123 (ix2 (0 : Fin 1) (0 : Fin 1)) k) (ix2 k (0 : Fin 1)) rfl rfl, hiddenV_apply]

end Cert.ReferenceIdeal.RefHead

end
-- ==== Proof.Bridge.lean ====
/-
  The two programs meet. The feature row both heads start from is one term of the same six arguments in both
  programs (the same host operations in the same order). From it: the kernel's accumulated block products are the
  reference's first-layer products; the hidden rows, logits, log-softmax and value unit are the specification's
  functions of the same entries on both sides, so the two results agree entry by entry.
-/
import proofs.«180378_g18657337934107_cont_8to1_35_7_alg».proof.Proof.KernelValue
import proofs.«180378_g18657337934107_cont_8to1_35_7_alg».proof.Proof.HeadOneSum
import proofs.«180378_g18657337934107_cont_8to1_35_7_alg».proof.Proof.HeadTwoMath
import proofs.«180378_g18657337934107_cont_8to1_35_7_alg».proof.Proof.RefValue
import proofs.«180378_g18657337934107_cont_8to1_35_7_alg».proof.Proof.RefReadP
import Idealize.ShloMosaic.Lib.StableHlo.Run
import Idealize.ShloMosaic.Lib.ValueLayout

set_option maxRecDepth 16384

noncomputable section

open Idealize.ShloMosaic Idealize.ShloMosaic.TcCoe Idealize.SL.Sem
open scoped BigOperators
namespace Cert.Proof.Bridge

open Idealize.ShloMosaic Idealize.ShloMosaic.TcCoe Idealize.SL.Sem Idealize.ShloMosaic.StableHlo

variable {F : FTy → Type} [FloatOps F]
variable (m : (ℓ : Loc Cert.KernelIdeal.nD Cert.KernelIdeal.τ Cert.KernelIdeal.sig) → Buf (Elt F) ℓ) (ρ : Dev Cert.KernelIdeal.nD → PrngReg)

set_option maxRecDepth 200000 in
set_option maxHeartbeats 100000000 in
/-- The flattened feature row the first kernel is launched on is the reference's: both programs compute it by the same
    host operations (two graph-convolution layers with their rectifiers, then a reshape) of the same six arguments. -/
theorem flat_eq (c : Dev Cert.KernelIdeal.nD) :
    Cert.KernelIdeal.Gen.V5 m ρ c Cert.KernelIdeal.main_v110
      = Cert.ReferenceIdeal.ReadP.val_main_v110 (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  show StableHlo.after Cert.KernelIdeal.Gen.hostOps0_4 (StableHlo.after Cert.KernelIdeal.Gen.hostOps0_3
    (StableHlo.after Cert.KernelIdeal.Gen.hostOps0_2 (StableHlo.after Cert.KernelIdeal.Gen.hostOps0_1
    (StableHlo.after Cert.KernelIdeal.Gen.hostOps0 (Cert.KernelIdeal.Gen.W0 m ρ c)))))
    (Proc.devRef .tc Cert.KernelIdeal.main_v110) = _
  after_results_simp
  rfl

section Results

open Idealize.ShloMosaic.ValueIdx Cert.Head.Spec

variable (m : (ℓ : Loc Cert.KernelIdeal.nD Cert.KernelIdeal.τ Cert.KernelIdeal.sig) → Buf (Elt Ideal) ℓ) (ρ : Dev Cert.KernelIdeal.nD → PrngReg)

/-- The first kernel's first output is the reference's first-layer product for the policy head. -/
theorem preA_eq (c : Dev Cert.KernelIdeal.nD) (k : Fin 64) :
    Cert.KernelIdeal.Head.runA (Cert.KernelIdeal.Gen.V5 m ρ) c 49 Cert.KernelIdeal.Head.lastLt (ix2 (0 : Fin 1) k)
      = Cert.ReferenceIdeal.ReadP.val_main_v111 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (ix2 (0 : Fin 1) k) := by
  rw [Cert.KernelIdeal.Head.resultA_apply, Cert.ReferenceIdeal.RefHead.preA_apply]
  refine Finset.sum_congr rfl fun p _ => ?_
  have e1 : Cert.KernelIdeal.Head.rowOf (Cert.KernelIdeal.Gen.V5 m ρ) c = _ := flat_eq m ρ c
  have e2 : Cert.KernelIdeal.Head.matA (Cert.KernelIdeal.Gen.V5 m ρ) c = _ := Cert.KernelIdeal.Head.V5_arg6 m ρ c
  rw [e1, e2]

/-- The first kernel's second output is the reference's first-layer product for the value head. -/
theorem preV_eq (c : Dev Cert.KernelIdeal.nD) (k : Fin 64) :
    Cert.KernelIdeal.Head.runV (Cert.KernelIdeal.Gen.V5 m ρ) c 49 Cert.KernelIdeal.Head.lastLt (ix2 (0 : Fin 1) k)
      = Cert.ReferenceIdeal.ReadP.val_main_v119 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (ix2 (0 : Fin 1) k) := by
  rw [Cert.KernelIdeal.Head.resultV_apply, Cert.ReferenceIdeal.RefHead.preV_apply]
  refine Finset.sum_congr rfl fun p _ => ?_
  have e1 : Cert.KernelIdeal.Head.rowOf (Cert.KernelIdeal.Gen.V5 m ρ) c = _ := flat_eq m ρ c
  have e2 : Cert.KernelIdeal.Head.matV (Cert.KernelIdeal.Gen.V5 m ρ) c = _ := Cert.KernelIdeal.Head.V5_arg10 m ρ c
  rw [e1, e2]

/-- The kernel's first result is the reference's: both are the log-softmax of the same logits. -/
theorem result0_bridge (c : Dev Cert.KernelIdeal.nD) :
    Cert.KernelIdeal.Gen.W8 m ρ c (Proc.devRef .tc Cert.KernelIdeal.main_v116_0)
      = Cert.ReferenceIdeal.ReadP.val_main_v118 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  rw [Cert.KernelIdeal.Head.result0_eq]
  funext i
  obtain ⟨u, n, rfl⟩ : ∃ (u : Fin 1) (n : Fin 10000), i = ix2 u n := ⟨i 0, i 1, eq_ix2 i⟩
  obtain rfl : u = 0 := Subsingleton.elim _ _
  refine (Cert.KernelIdeal.Head.pay2_apply _ _ _ _ n).trans ((Cert.ReferenceIdeal.RefHead.logp_apply _ _ _ _ _ _ _ _ _ _ n).trans ?_).symm
  refine congrArg (fun L => logSoftmax L n) (funext fun n' => ?_)
  have hh : (hidden (fun k => Cert.ReferenceIdeal.ReadP.val_main_v111 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (ix2 (0 : Fin 1) k))
      (fun k => (m ((c.tc : Thread Cert.KernelIdeal.nD Cert.KernelIdeal.τ).loc Cert.KernelIdeal.main_arg7)) (ix1 k)))
      = hidden (fun k => Cert.KernelIdeal.Head.runA (Cert.KernelIdeal.Gen.V5 m ρ) c 49 Cert.KernelIdeal.Head.lastLt (ix2 (0 : Fin 1) k))
          (fun k => shapeCast Cert.KernelIdeal.S1x64 (m ((c.tc : Thread Cert.KernelIdeal.nD Cert.KernelIdeal.τ).loc Cert.KernelIdeal.main_arg7)) Cert.KernelIdeal.Gen.shapeCasts_S64_S1x64 (ix2 (0 : Fin 1) k)) := by
    funext k
    unfold Cert.Head.Spec.hidden
    beta_reduce
    rw [preA_eq m ρ c k, shapeCast_a_1a_apply]
  rw [hh]
  unfold logits
  beta_reduce
  rw [shapeCast_a_1a_apply]
  try rfl

/-- The kernel's second result is the reference's: both are the value unit of the same hidden row. -/
theorem result1_bridge (c : Dev Cert.KernelIdeal.nD) :
    Cert.KernelIdeal.Gen.W8 m ρ c (Proc.devRef .tc Cert.KernelIdeal.main_v116_1)
      = Cert.ReferenceIdeal.ReadP.val_main_v126 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  rw [Cert.KernelIdeal.Head.result1_eq]
  funext i
  obtain ⟨u, v, rfl⟩ : ∃ (u : Fin 1) (v : Fin 1), i = ix2 u v := ⟨i 0, i 1, eq_ix2 i⟩
  obtain rfl : u = 0 := Subsingleton.elim _ _
  obtain rfl : v = 0 := Subsingleton.elim _ _
  refine (Cert.KernelIdeal.Head.pay1_apply' _ _ _ _).trans ((Cert.ReferenceIdeal.RefHead.value_apply _ _ _ _ _ _ _ _ _ _).trans ?_).symm
  have hh : (hidden (fun k => Cert.ReferenceIdeal.ReadP.val_main_v119 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (ix2 (0 : Fin 1) k))
      (fun k => (m ((c.tc : Thread Cert.KernelIdeal.nD Cert.KernelIdeal.τ).loc Cert.KernelIdeal.main_arg11)) (ix1 k)))
      = hidden (fun k => Cert.KernelIdeal.Head.runV (Cert.KernelIdeal.Gen.V5 m ρ) c 49 Cert.KernelIdeal.Head.lastLt (ix2 (0 : Fin 1) k))
          (fun k => shapeCast Cert.KernelIdeal.S1x64 (m ((c.tc : Thread Cert.KernelIdeal.nD Cert.KernelIdeal.τ).loc Cert.KernelIdeal.main_arg11)) Cert.KernelIdeal.Gen.shapeCasts_S64_S1x64 (ix2 (0 : Fin 1) k)) := by
    funext k
    unfold Cert.Head.Spec.hidden
    beta_reduce
    rw [preV_eq m ρ c k, shapeCast_a_1a_apply]
  rw [hh, shapeCast_a_1a_apply]
  try rfl

end Results

end Cert.Proof.Bridge

end
-- ==== Proof.lean ====
/-
  The claim: the kernel (two graph-convolution layers on the host, a blocked matrix-vector kernel feeding both heads,
  and a second kernel with the policy head's log-softmax and the value head's tanh) against its jnp reference.

  * The three frames: the two kernels' generated frames; the reference's run with its results dropped.
  * The idealization rewrote nothing, so it is preserved trivially.
  * Over the extended reals both programs return the same two arrays. The feature row both heads start from is the
    same term of the same six arguments in both programs. From it, the kernel's fifty accumulated block products are
    the reference's one 160000-term product (addition is commutative and associative on the extended reals, so no
    finiteness is used and the precondition is never opened); the rectified hidden rows, the logits, their maximum
    (the reference also joins it with −∞, which changes nothing), the shifted log-sum-exp and the value unit are then
    the same functions of the same entries on both sides.
-/
import proofs.«180378_g18657337934107_cont_8to1_35_7_alg».proof.Defs
import proofs.«180378_g18657337934107_cont_8to1_35_7_alg».proof.Proof.Gen.Kernel
import proofs.«180378_g18657337934107_cont_8to1_35_7_alg».proof.Proof.Gen.Kernel.Frame
import proofs.«180378_g18657337934107_cont_8to1_35_7_alg».proof.Proof.Gen.KernelIdeal
import proofs.«180378_g18657337934107_cont_8to1_35_7_alg».proof.Proof.Gen.KernelIdeal.Frame
import proofs.«180378_g18657337934107_cont_8to1_35_7_alg».proof.Proof.Gen.ReferenceIdeal
import proofs.«180378_g18657337934107_cont_8to1_35_7_alg».proof.Proof.Gen.Pre_finite_inputs
import proofs.«180378_g18657337934107_cont_8to1_35_7_alg».proof.Proof.KernelRun
import proofs.«180378_g18657337934107_cont_8to1_35_7_alg».proof.Proof.RefRun
import proofs.«180378_g18657337934107_cont_8to1_35_7_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.RefRun.run (F := Ideal) m ρ)

theorem preserves : Cert.preserves_Kernel_KernelIdeal := trivial

/-- Both programs, from memories that agree on the arguments, end with the same two result arrays. -/
theorem algebraic : Cert.algebraic_KernelIdeal_ReferenceIdeal := by
  intro m ρ m' ρ' _ hagree
  refine ⟨fun c => Cert.KernelIdeal.Gen.W8 m ρ c (Proc.devRef .tc Cert.KernelIdeal.main_v116_0),
    fun c => Cert.KernelIdeal.Gen.W8 m ρ c (Proc.devRef .tc Cert.KernelIdeal.main_v116_1),
    Cert.KernelIdeal.Head.run_outs (F := Ideal) m ρ, ?_⟩
  refine (θ_run Cert.ReferenceIdeal.defs _ _).mono (fun _ h c => ?_) (Cert.ReferenceIdeal.RefRun.run (F := Ideal) m' ρ')
  obtain ⟨h0, h1, h2, h3, h4, h5, h6, h7, h8, h9, h10, h11, h12, h13⟩ := hagree c
  refine ⟨(h c).1.trans ?_, (h c).2.1.trans ?_, (h c).2.2⟩
  · rw [h0, h1, h2, h3, h4, h5, h6, h7, h8, h9]
    exact (Cert.Proof.Bridge.result0_bridge m ρ c).symm
  · rw [h0, h1, h2, h3, h4, h5, h10, h11, h12, h13]
    exact (Cert.Proof.Bridge.result1_bridge m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
